-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64x10 .f32) (main_arg24 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x10 .f32 := Host.absf main_arg23
  let main_cst_40 : FVec F S_ .f32 := constant S_ .f32 0x7F800000#32
  let main_v105 : FVec F S64x10 .f32 := broadcastInDim S64x10 ![] bcast_S_S64x10 main_cst_40
  let main_v106 : IVec S64x10 1 := cmpf .olt main_v104 main_v105
  let main_c_41 : IVec S_ 1 := constantI S_ 1 1#1
  let main_v107 : IVec S_ 1 := (fun x v => Host.reduce IntOp.andi x v reducesTo_S64x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg20 : FVec F S64 .f32) (main_arg21 : FVec F S64 .f32) (main_arg22 : FVec F S64 .f32) (main_arg23 : FVec F S64x10 .f32) (main_arg24 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg15
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S256x64 : Shape := ⟨2, ![256, 64]⟩
abbrev S50000x1 : Shape := ⟨2, ![50000, 1]⟩
abbrev S1x10 : Shape := ⟨2, ![1, 10]⟩
abbrev S256x10 : Shape := ⟨2, ![256, 10]⟩

abbrev nBuf : Space → Nat
  | .hbm => 90
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S192x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x10, .f32⟩
  | .hbm, ⟨24, _⟩ => ⟨S10, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x64, .f32⟩
  | .hbm, ⟨43, _⟩ => ⟨S1x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S1x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S1x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S_, .f32⟩
  | .hbm, ⟨80, _⟩ => ⟨S256x64, .f32⟩
  | .hbm, ⟨81, _⟩ => ⟨S50000x1, .i32⟩
  | .hbm, ⟨82, _⟩ => ⟨S256x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x10, .f32⟩
  | .hbm, ⟨89, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S192x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S256x64, .f32⟩
  | .local _ .vmem, ⟨41, _⟩ => ⟨S64x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S64x10, .f32⟩
  | .local _ .vmem, ⟨48, _⟩ => ⟨S1x10, .f32⟩
  | .local _ .vmem, ⟨49, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x10 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x10 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  slices_S192x64_o64_0_S64x64 : S192x64.Slices ![64, 0] S64x64
  slices_S192x64_o128_0_S64x64 : S192x64.Slices ![128, 0] S64x64
  bcast_S_S256x64 : S_.BroadcastsInDim S256x64 (![] : Fin 0 → Fin S256x64.rank)
  bcast_S50000_S50000x1_0 : S50000.BroadcastsInDim S50000x1 (![0] : Fin 1 → Fin S50000x1.rank)
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x10.size a ≤ S64x10.size a
  hwx4_7 : ∀ i : grid4.Coords, EltTy.bits .f32 = 32 ∨ (Rect.block (s := S64x10) S64x10.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x10.size a ≤ S1x10.size a
  hwx4_8 : ∀ i : grid4.Coords, EltTy.bits .f32 = 32 ∨ (Rect.block (s := S1x10) S1x10.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256x10.size a ≤ S256x10.size a
  hwx4_9 : ∀ i : grid4.Coords, EltTy.bits .f32 = 32 ∨ (Rect.block (s := S256x10) S256x10.size (cc4_transform_9 i) (hinb4_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v16) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v52) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg23) S64x10.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v53) S1x10.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v54) S256x10.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S192x64 : Shape := ⟨2, ![192, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S50000x192 : Shape := ⟨2, ![50000, 192]⟩
abbrev S256x64 : Shape := ⟨2, ![256, 64]⟩
abbrev S50000x1 : Shape := ⟨2, ![50000, 1]⟩
abbrev S256x10 : Shape := ⟨2, ![256, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S192x64, .f32⟩
  | 16 => ⟨S64, .f32⟩
  | 17 => ⟨S64x64, .f32⟩
  | 18 => ⟨S64, .f32⟩
  | 19 => ⟨S64, .f32⟩
  | 20 => ⟨S64, .f32⟩
  | 21 => ⟨S64, .f32⟩
  | 22 => ⟨S64, .f32⟩
  | 23 => ⟨S64x10, .f32⟩
  | 24 => ⟨S10, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S_, .f32⟩
  | 95 => ⟨S50000x64, .f32⟩
  | 96 => ⟨S800000x1, .i32⟩
  | 97 => ⟨S50000x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x192, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S256x64, .f32⟩
  | 120 => ⟨S50000x1, .i32⟩
  | 121 => ⟨S256x64, .f32⟩
  | 122 => ⟨S256x64, .f32⟩
  | 123 => ⟨S1x64, .f32⟩
  | 124 => ⟨S256x64, .f32⟩
  | 125 => ⟨S256x64, .f32⟩
  | 126 => ⟨S1x64, .f32⟩
  | 127 => ⟨S256x64, .f32⟩
  | _ => ⟨S50000x128, .f32⟩

abbrev hbmTy0_1 (i : Nat) : BufTy := match i % 128 with
  | 0 => ⟨S256x64, .f32⟩
  | 1 => ⟨S_, .f32⟩
  | 2 => ⟨S64, .f32⟩
  | 3 => ⟨S64, .f32⟩
  | 4 => ⟨S64, .f32⟩
  | 5 => ⟨S1x64, .f32⟩
  | 6 => ⟨S256x64, .f32⟩
  | 7 => ⟨S256x64, .f32⟩
  | 8 => ⟨S1x64, .f32⟩
  | 9 => ⟨S256x64, .f32⟩
  | 10 => ⟨S256x64, .f32⟩
  | 11 => ⟨S1x64, .f32⟩
  | 12 => ⟨S256x64, .f32⟩
  | 13 => ⟨S256x64, .f32⟩
  | 14 => ⟨S_, .f32⟩
  | 15 => ⟨S256x64, .f32⟩
  | 16 => ⟨S256x64, .f32⟩
  | 17 => ⟨S256x10, .f32⟩
  | 18 => ⟨S1x10, .f32⟩
  | 19 => ⟨S256x10, .f32⟩
  | 20 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_cst : Ref sig .tc := ⟨.hbm, 54, rfl⟩
abbrev main_call1_v0 : Ref sig .tc := ⟨.hbm, 55, rfl⟩
abbrev main_v24 : Ref sig .tc := ⟨.hbm, 56, rfl⟩
abbrev main_c_1 : Ref sig .tc := ⟨.hbm, 57, rfl⟩
abbrev main_v25 : Ref sig .tc := ⟨.hbm, 58, rfl⟩
abbrev main_v26 : Ref sig .tc := ⟨.hbm, 59, rfl⟩
abbrev main_c_2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_3 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call2_cst : Ref sig .tc := ⟨.hbm, 75, rfl⟩
abbrev main_call2_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_call3_cst : Ref sig .tc := ⟨.hbm, 82, rfl⟩
abbrev main_call3_v0 : Ref sig .tc := ⟨.hbm, 83, rfl⟩
abbrev main_v45 : Ref sig .tc := ⟨.hbm, 84, rfl⟩
abbrev main_c_4 : Ref sig .tc := ⟨.hbm, 85, rfl⟩
abbrev main_v46 : Ref sig .tc := ⟨.hbm, 86, rfl⟩
abbrev main_v47 : Ref sig .tc := ⟨.hbm, 87, rfl⟩
abbrev main_c_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_6 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_call4_cst : Ref sig .tc := ⟨.hbm, 103, rfl⟩
abbrev main_call4_v0 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call5_cst : Ref sig .tc := ⟨.hbm, 110, rfl⟩
abbrev main_call5_v0 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_7 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_8 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call6_cst : Ref sig .tc := ⟨.hbm, 142, rfl⟩
abbrev main_call6_v0 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  bcast_S_S256x64 : S_.BroadcastsInDim S256x64 (![] : Fin 0 → Fin S256x64.rank)
  bcast_S50000_S50000x1_0 : S50000.BroadcastsInDim S50000x1 (![0] : Fin 1 → Fin S50000x1.rank)
  bcast_S1x64_S256x64_0_1 : S1x64.BroadcastsInDim S256x64 (![0, 1] : Fin 2 → Fin S256x64.rank)
  bcast_S_S64 : S_.BroadcastsInDim S64 (![] : Fin 0 → Fin S64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  dot_S256x64_S64x10_S256x10_1_0_0_1_n_n_wf : DotDims.WF S256x64 S64x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.KernelRun.lean ====
/-
  The idealized kernel's run with its result named.

  @main is five pipelined regions among five stretches of host operations.  The launch theorem for such a program runs
  the segments one after another, each from the buffer contents the previous one leaves: a stretch of host operations
  applies them to those contents, and a region leaves each of its arrays at what its write-backs leave and every other
  buffer alone.  The contents at the last boundary are `Gen.W10`; every weakly fair execution terminates with every
  unscoped buffer at those contents, in particular the result buffer `main_v54`.
-/
import proofs.«134794_j18726057411221_1_alg».proof.Proof.KernelIdealFrameP
import proofs.«134794_j18726057411221_1_alg».proof.Proof.LibRunBoth

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents. -/
theorem run_result : θ_run defs (onTc (τ := τ) (main (F := F))) ⟨m, fun _ => 0, ρ⟩ (fun r => ∀ c : Dev nD,
      r.2.mem ((c.tc : Thread nD τ).loc main_v54) = W10 m ρ c (Proc.devRef .tc main_v54)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c _ (mem_uc main_v54 (by decide)))

end Cert.KernelIdeal.RunValue

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibBlockRows.lean ====
/-
  Small facts about row-blocked arrays, used when a blockwise computation is read as one whole-array function.

  * The offsets `![0, 0]` of a whole-block access are the zero function.
  * A one-column array broadcast along the columns reads, at `(p, c)`, its entry `(p, 0)`.
-/
import Idealize.ShloMosaic.Lib.ValueIdx
import Idealize.ShloMosaic.Lib.ValueLayout
import Idealize.ShloMosaic.Lib.Pipeline.Value

namespace Cert.LibBlockRows

open Idealize.ShloMosaic Idealize.ShloMosaic.ValueIdx

variable {α : Type}

/-- The offsets of an access at the block's origin, as the zero function. -/
theorem zero_offsets : (![0, 0] : Fin 2 → Nat) = fun _ => 0 := funext fun a => by fin_cases a <;> rfl

/-- One column broadcast over many: the result at `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBlockRows
-- ==== Proof.LibAffineTiles.lean ====
/-
  Affine layers and the scaled, clamped hyperbolic tangent, read at coordinates over the extended reals.

  A dense layer `x · W + b` appears in two spellings. On a tile of rows it is an accumulating matrix product into a zero
  accumulator plus a `[1, B]` bias row broadcast over the tile's rows (optionally followed by a maximum with a scalar
  word); on a whole array it is the host's product plus the bias row stretched over all rows (optionally followed by a
  maximum with a broadcast scalar constant). Both read, at `(a, b)`, `(∑ k, x (a, k) · W (k, b)) + bias (0, b)`: the two
  spellings are one function of the operands, with no finiteness needed, because both products are the same finite
  sum. The second family is `tanh (max (y · s) 0)` with `s` one column stretched over the row: on a tile through a
  vector broadcast, on a whole array through the host's `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«134794_j18726057411221_1_alg».proof.Proof.LibColumnBlocks
import proofs.«134794_j18726057411221_1_alg».proof.Proof.LibCastForms
import proofs.«134794_j18726057411221_1_alg».proof.Proof.LibBlockRows

noncomputable section

namespace Cert.LibAffineTiles

open Idealize.ShloMosaic Idealize.ShloMosaic.ValueIdx

/-- A `[1, B]` row, recast to its own shape and broadcast over `A` rows, at `(p, q)` is the row's entry `q`. -/
theorem rowOver_apply {α : Type} {A B : ℕ} (v : (⟨2, ![1, B]⟩ : Shape).Idx → α)
    (hsc : (⟨2, ![1, B]⟩ : Shape).ShapeCasts ⟨2, ![1, B]⟩) (hbc : (⟨2, ![1, B]⟩ : Shape).Broadcasts ⟨2, ![A, B]⟩)
    (p : Fin A) (q : Fin B) :
    broadcastTo ⟨2, ![A, B]⟩ (shapeCast ⟨2, ![1, B]⟩ v hsc) hbc (ix2 p q) = v (ix2 (0 : Fin 1) q) := by
  rw [shapeCast_self]
  refine broadcastTo_apply v hbc (ix2 p q) (ix2 (0 : Fin 1) q) fun a => ?_
  match a with
  | ⟨0, _⟩ => exact (if_pos rfl).symm
  | ⟨1, _⟩ =>
    show q.val = if B = 1 then 0 else q.val
    split
    · have := q.isLt; omega
    · rfl

/-- A scalar placed everywhere by the host's `broadcast_in_dim` with no dimensions. -/
theorem scalarOver_apply {α : Type} {s : Shape} (x : (⟨0, ![]⟩ : Shape).Idx → α)
    (h : (⟨0, ![]⟩ : Shape).BroadcastsInDim s (![] : Fin 0 → Fin s.rank)) (j : s.Idx) :
    broadcastInDim s (![] : Fin 0 → Fin s.rank) h x j = x ix0 :=
  broadcastInDim_apply _ h x j ix0 fun a => a.elim0

section Affine
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (x : FVec Ideal ⟨2, ![A, K]⟩ .f32) (w : FVec Ideal ⟨2, ![K, B]⟩ .f32) (b : FVec Ideal ⟨2, ![1, B]⟩ .f32)
  (p : Fin A) (q : Fin B)

/-- The value of the dense layer at `(p, q)`. -/
def affineAt : EReal := (∑ k : Fin K, x (ix2 p k) * w (ix2 k q)) + b (ix2 (0 : Fin 1) q)

include hr hs hlc hrc hl0 hr1 in
/-- The tile's spelling: product into a zero accumulator, plus the bias row over the tile's rows. -/
theorem tile_apply (hsc : (⟨2, ![1, B]⟩ : Shape).ShapeCasts ⟨2, ![1, B]⟩) (hbc : (⟨2, ![1, B]⟩ : Shape).Broadcasts ⟨2, ![A, B]⟩) :
    addf (matmul d none x w (constant ⟨2, ![A, B]⟩ .f32 0x00000000#32))
      (broadcastTo ⟨2, ![A, B]⟩ (shapeCast ⟨2, ![1, B]⟩ b hsc) hbc) (ix2 p q) = affineAt x w b p q := by
  rw [addf_apply, LibColumnBlocks.matmul_zero_apply d hr hs hlc hrc hl0 hr1, rowOver_apply]
  rfl

include hr hs hlc hrc hl0 hr1 in
/-- The same with the left operand first recast to its own shape. -/
theorem tile_cast_apply (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    addf (matmul d none (shapeCast ⟨2, ![A, K]⟩ x hx) w (constant ⟨2, ![A, B]⟩ .f32 0x00000000#32))
      (broadcastTo ⟨2, ![A, B]⟩ (shapeCast ⟨2, ![1, B]⟩ b hsc) hbc) (ix2 p q) = affineAt x w b p q := by
  rw [shapeCast_self]
  exact tile_apply d hr hs hlc hrc hl0 hr1 x w b p q hsc hbc

include hr hs hlc hrc hl0 hr1 in
/-- … followed by a maximum with a scalar word. -/
theorem tile_cast_max_apply (z : BitVec 32) (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    maximumf (addf (matmul d none (shapeCast ⟨2, ![A, K]⟩ x hx) w (constant ⟨2, ![A, B]⟩ .f32 0x00000000#32))
      (broadcastTo ⟨2, ![A, B]⟩ (shapeCast ⟨2, ![1, B]⟩ b hsc) hbc))
      (broadcast ⟨2, ![A, B]⟩ (Scalar.ofBits (F := Ideal) .f32 z)) (ix2 p q)
      = max (affineAt x w b p q) (Ideal.ofBits .f32 z) := by
  rw [maximumf_apply, tile_cast_apply d hr hs hlc hrc hl0 hr1 x w b p q hx hsc hbc]
  rfl

include hr hs hlc hrc hl0 hr1 in
/-- The whole array's spelling: the host's product plus the bias row stretched over all rows. -/
theorem whole_apply (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) (ix2 p q)
      = affineAt x w b p q := by
  rw [addf_apply, LibColumnBlocks.hostDot_apply d hr hs hlc hrc hl0 hr1, LibCastForms.bcast_1b_ab_apply]
  rfl

include hr hs hlc hrc hl0 hr1 in
/-- … followed by a maximum with a broadcast scalar constant. -/
theorem whole_max_apply (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) (ix2 p q)
      = max (affineAt x w b p q) (Ideal.ofBits .f32 z) := by
  rw [maximumf_apply, whole_apply d hr hs hlc hrc hl0 hr1 x w b p q hb, scalarOver_apply]
  rfl

/-- The dense layer as a whole array. -/
def affine : FVec Ideal ⟨2, ![A, B]⟩ .f32 := fun i => affineAt x w b (i 0) (i 1)

/-- The dense layer followed by a maximum with a scalar word, as a whole array. -/
def affineMax (z : BitVec 32) : FVec Ideal ⟨2, ![A, B]⟩ .f32 := fun i => max (affineAt x w b (i 0) (i 1)) (Ideal.ofBits .f32 z)

include hr hs hlc hrc hl0 hr1 in
/-- The host's spelling of the dense layer is that array. -/
theorem whole_eq (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) = affine x w b := by
  funext j
  obtain ⟨p, q, rfl⟩ : ∃ (p : Fin A) (q : Fin B), j = ix2 p q := ⟨j 0, j 1, eq_ix2 j⟩
  exact whole_apply d hr hs hlc hrc hl0 hr1 x w b p q hb

include hr hs hlc hrc hl0 hr1 in
/-- The host's spelling of the clamped dense layer is that array. -/
theorem whole_max_eq (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) = affineMax x w b z := by
  funext j
  obtain ⟨p, q, rfl⟩ : ∃ (p : Fin A) (q : Fin B), j = ix2 p q := ⟨j 0, j 1, eq_ix2 j⟩
  exact whole_max_apply d hr hs hlc hrc hl0 hr1 x w b p q z hb h0

end Affine

section Squash
variable {A B : ℕ} (y : FVec Ideal ⟨2, ![A, B]⟩ .f32) (s : FVec Ideal ⟨2, ![A, 1]⟩ .f32) (z : BitVec 32) (p : Fin A) (q : Fin B)

/-- `tanh (max (y · s) z)` at `(p, q)`, the factor `s` taken from row `p` of one column. -/
def squashAt : EReal := Ideal.tanh (max (y (ix2 p q) * s (ix2 p (0 : Fin 1))) (Ideal.ofBits .f32 z))

/-- The tile's spelling: both operands recast to their own shapes, the column broadcast over the row. -/
theorem squash_tile_apply (hy : (⟨2, ![A, B]⟩ : Shape).ShapeCasts ⟨2, ![A, B]⟩) (hs : (⟨2, ![A, 1]⟩ : Shape).ShapeCasts ⟨2, ![A, 1]⟩)
    (hbc : (⟨2, ![A, 1]⟩ : Shape).Broadcasts ⟨2, ![A, B]⟩) :
    tanh (maximumf (mulf (shapeCast ⟨2, ![A, B]⟩ y hy) (broadcastTo ⟨2, ![A, B]⟩ (shapeCast ⟨2, ![A, 1]⟩ s hs) hbc))
      (broadcast ⟨2, ![A, B]⟩ (Scalar.ofBits (F := Ideal) .f32 z))) (ix2 p q) = squashAt y s z p q := by
  rw [shapeCast_self, shapeCast_self]
  show Ideal.tanh (max (y (ix2 p q) * broadcastTo ⟨2, ![A, B]⟩ s hbc (ix2 p q)) (Ideal.ofBits .f32 z)) = _
  rw [LibBlockRows.broadcastTo_a1_ab_apply]
  rfl

/-- The whole array's spelling on the host. -/
theorem squash_whole_apply (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) (ix2 p q)
      = squashAt y s z p q := by
  show Ideal.tanh (max (y (ix2 p q) * broadcastInDim ⟨2, ![A, B]⟩ (![0, 1] : Fin 2 → Fin 2) hb s (ix2 p q))
    (broadcastInDim ⟨2, ![A, B]⟩ (![] : Fin 0 → Fin 2) h0 (constant (F := Ideal) ⟨0, ![]⟩ .f32 z) (ix2 p q))) = _
  rw [LibCastForms.bcast_a1_ab_apply, scalarOver_apply]
  rfl

/-- The scaled, clamped hyperbolic tangent as a whole array. -/
def squash : FVec Ideal ⟨2, ![A, B]⟩ .f32 := fun i => squashAt y s z (i 0) (i 1)

/-- The host's spelling is that array. -/
theorem squash_whole_eq (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) = squash y s z := by
  funext j
  obtain ⟨p, q, rfl⟩ : ∃ (p : Fin A) (q : Fin B), j = ix2 p q := ⟨j 0, j 1, eq_ix2 j⟩
  exact squash_whole_apply y s z p q hb h0

end Squash

end Cert.LibAffineTiles

end
-- ==== Proof.LibGinLayer.lean ====
/-
  One graph-isomorphism layer on whole arrays, over the extended reals.

  For node features `h` and aggregated neighbour features `agg` (both `[A, K]`), weights `w1 : [K, B]`, `w2 : [B, B]`
  and bias rows `b1 b2 : [1, B]`, the layer is

      layer (a, q) = max (∑ k, max ((∑ j, (h (a, j) + agg (a, j)) · w1 (j, k)) + b1 (0, k)) 0 · w2 (k, q) + b2 (0, q)) 0,

  two dense layers each followed by a maximum with zero.  A tile of rows computes it with two accumulating products into
  zero accumulators whose operands pass through a change of float format (the identity on extended reals); that printed
  form is the same function (`tile_eq`).  Row `a` of the result reads only row `a` of `h` and `agg`, so the layer of
  a block of rows is the block of the layer (`layer_rows`).  No finiteness is needed anywhere: only the same finite sums
  appear on both sides.
-/
import Idealize.ShloMosaic.PureOps.Ideal.Laws
import Idealize.ShloMosaic.Lib.ValueIdx
import Idealize.ShloMosaic.Lib.ValueLayout
import Idealize.ShloMosaic.Lib.Pipeline.Value
import proofs.«134794_j18726057411221_1_alg».proof.Proof.LibColumnBlocks
import proofs.«134794_j18726057411221_1_alg».proof.Proof.LibAffineTiles

noncomputable section

namespace Cert.GinLayer

open Idealize.ShloMosaic Idealize.ShloMosaic.ValueIdx Cert.LibAffineTiles

variable {A K B : ℕ}

/-- The first dense layer with its maximum: `max ((h + agg) · w1 + b1) 0`. -/
def hidden (h agg : FVec Ideal ⟨2, ![A, K]⟩ .f32) (w1 : FVec Ideal ⟨2, ![K, B]⟩ .f32) (b1 : FVec Ideal ⟨2, ![1, B]⟩ .f32) :
    FVec Ideal ⟨2, ![A, B]⟩ .f32 :=
  affineMax (addf h agg) w1 b1 0x00000000#32

/-- The whole layer: `max (hidden · w2 + b2) 0`. -/
def layer (h agg : FVec Ideal ⟨2, ![A, K]⟩ .f32) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) : FVec Ideal ⟨2, ![A, B]⟩ .f32 :=
  affineMax (hidden h agg w1 b1) w2 b2 0x00000000#32

theorem hidden_apply (h agg : FVec Ideal ⟨2, ![A, K]⟩ .f32) (w1 : FVec Ideal ⟨2, ![K, B]⟩ .f32) (b1 : FVec Ideal ⟨2, ![1, B]⟩ .f32)
    (p : Fin A) (k : Fin B) :
    hidden h agg w1 b1 (ix2 p k)
      = max ((∑ j : Fin K, (h (ix2 p j) + agg (ix2 p j)) * w1 (ix2 j k)) + b1 (ix2 (0 : Fin 1) k)) (Ideal.ofBits .f32 0x00000000#32) := rfl

theorem layer_apply (h agg : FVec Ideal ⟨2, ![A, K]⟩ .f32) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) (p : Fin A) (q : Fin B) :
    layer h agg w1 b1 w2 b2 (ix2 p q)
      = max ((∑ k : Fin B, hidden h agg w1 b1 (ix2 p k) * w2 (ix2 k q)) + b2 (ix2 (0 : Fin 1) q)) (Ideal.ofBits .f32 0x00000000#32) := rfl

/-- Row `p` of the layer of one pair of arrays is row `p'` of the layer of another pair as soon as those rows agree:
    a block of rows goes through the layer by itself. -/
theorem layer_rows {A' : ℕ} (h agg : FVec Ideal ⟨2, ![A, K]⟩ .f32) (h' agg' : FVec Ideal ⟨2, ![A', K]⟩ .f32)
    (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) (p : Fin A) (p' : Fin A') (q : Fin B)
    (hh : ∀ j : Fin K, h (ix2 p j) = h' (ix2 p' j)) (ha : ∀ j : Fin K, agg (ix2 p j) = agg' (ix2 p' j)) :
    layer h agg w1 b1 w2 b2 (ix2 p q) = layer h' agg' w1 b1 w2 b2 (ix2 p' q) := by
  rw [layer_apply, layer_apply]
  have e : ∀ k : Fin B, hidden h agg w1 b1 (ix2 p k) = hidden h' agg' w1 b1 (ix2 p' k) := fun k => by
    rw [hidden_apply, hidden_apply]
    exact congrArg (fun s => max (s + b1 (ix2 (0 : Fin 1) k)) (Ideal.ofBits .f32 0x00000000#32))
      (Finset.sum_congr rfl fun j _ => by rw [hh j, ha j])
  exact congrArg (fun s => max (s + b2 (ix2 (0 : Fin 1) q)) (Ideal.ofBits .f32 0x00000000#32))
    (Finset.sum_congr rfl fun k _ => by rw [e k])

section Tile
variable
  (d1 : DotDims ⟨2, ![A, K]⟩ ⟨2, ![K, B]⟩ ⟨2, ![A, B]⟩)
  (hr1 : d1.contr.rank = 1) (hs1 : d1.contr.size ⟨0, by omega⟩ = K)
  (hlc1 : d1.lhsContracting = [1]) (hrc1 : d1.rhsContracting = [0])
  (hl1 : ∀ j k, (d1.lhsIdx j k 0).val = (j 0).val) (hrr1 : ∀ j k, (d1.rhsIdx j k 1).val = (j 1).val)
  (d2 : DotDims ⟨2, ![A, B]⟩ ⟨2, ![B, B]⟩ ⟨2, ![A, B]⟩)
  (hr2 : d2.contr.rank = 1) (hs2 : d2.contr.size ⟨0, by omega⟩ = B)
  (hlc2 : d2.lhsContracting = [1]) (hrc2 : d2.rhsContracting = [0])
  (hl2 : ∀ j k, (d2.lhsIdx j k 0).val = (j 0).val) (hrr2 : ∀ j k, (d2.rhsIdx j k 1).val = (j 1).val)

include hr1 hs1 hlc1 hrc1 hl1 hrr1 hr2 hs2 hlc2 hrc2 hl2 hrr2 in
/-- The tile's printed form — `agg` recast to its own shape, both products' operands through a change of float format,
    products into zero accumulators, bias rows broadcast over the tile's rows, maxima with a broadcast zero word — is the
    layer of the tile's blocks. -/
theorem tile_eq (h agg : FVec Ideal ⟨2, ![A, K]⟩ .f32) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32)
    (hc : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩)
    (hbits : FTy.bf16.bits < FTy.f32.bits) :
    maximumf
      (addf
        (matmul d2 none
          (truncf .bf16
            (maximumf
              (addf
                (matmul d1 none (truncf .bf16 (addf h (shapeCast ⟨2, ![A, K]⟩ agg hc)) hbits) (truncf .bf16 w1 hbits)
                  (constant ⟨2, ![A, B]⟩ .f32 0x00000000#32))
                (broadcastTo ⟨2, ![A, B]⟩ (shapeCast ⟨2, ![1, B]⟩ b1 hsc) hbc))
              (broadcast ⟨2, ![A, B]⟩ (Scalar.ofBits (F := Ideal) .f32 0x00000000#32)))
            hbits)
          (truncf .bf16 w2 hbits) (constant ⟨2, ![A, B]⟩ .f32 0x00000000#32))
        (broadcastTo ⟨2, ![A, B]⟩ (shapeCast ⟨2, ![1, B]⟩ b2 hsc) hbc))
      (broadcast ⟨2, ![A, B]⟩ (Scalar.ofBits (F := Ideal) .f32 0x00000000#32))
      = layer h agg w1 b1 w2 b2 := by
  rw [shapeCast_self]
  funext j
  obtain ⟨p, q, rfl⟩ : ∃ (p : Fin A) (q : Fin B), j = ix2 p q := ⟨j 0, j 1, eq_ix2 j⟩
  rw [layer_apply, maximumf_apply, addf_apply,
    LibColumnBlocks.matmul_zero_apply d2 hr2 hs2 hlc2 hrc2 hl2 hrr2, rowOver_apply]
  refine congrArg (fun s => max (s + b2 (ix2 (0 : Fin 1) q)) _) (Finset.sum_congr rfl fun k _ => ?_)
  refine congrArg (· * w2 (ix2 k q)) ?_
  rw [hidden_apply]
  show max ((matmul d1 none (truncf .bf16 (addf h agg) hbits) (truncf .bf16 w1 hbits)
      (constant ⟨2, ![A, B]⟩ .f32 0x00000000#32)) (ix2 p k)
      + broadcastTo ⟨2, ![A, B]⟩ (shapeCast ⟨2, ![1, B]⟩ b1 hsc) hbc (ix2 p k)) _ = _
  rw [LibColumnBlocks.matmul_zero_apply d1 hr1 hs1 hlc1 hrc1 hl1 hrr1, rowOver_apply]
  rfl

include hr1 hs1 hlc1 hrc1 hl1 hrr1 hr2 hs2 hlc2 hrc2 hl2 hrr2 in
/-- The same with `h` recast to its own shape too — both products' operands through a change of float format,
    products into zero accumulators, bias rows broadcast over the tile's rows, maxima with a broadcast zero word — is the
    layer of the tile's blocks. -/
theorem tile_eq' (h agg : FVec Ideal ⟨2, ![A, K]⟩ .f32) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32)
    (hc : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩)
    (hbits : FTy.bf16.bits < FTy.f32.bits) :
    maximumf
      (addf
        (matmul d2 none
          (truncf .bf16
            (maximumf
              (addf
                (matmul d1 none (truncf .bf16 (addf (shapeCast ⟨2, ![A, K]⟩ h hc) (shapeCast ⟨2, ![A, K]⟩ agg hc)) hbits) (truncf .bf16 w1 hbits)
                  (constant ⟨2, ![A, B]⟩ .f32 0x00000000#32))
                (broadcastTo ⟨2, ![A, B]⟩ (shapeCast ⟨2, ![1, B]⟩ b1 hsc) hbc))
              (broadcast ⟨2, ![A, B]⟩ (Scalar.ofBits (F := Ideal) .f32 0x00000000#32)))
            hbits)
          (truncf .bf16 w2 hbits) (constant ⟨2, ![A, B]⟩ .f32 0x00000000#32))
        (broadcastTo ⟨2, ![A, B]⟩ (shapeCast ⟨2, ![1, B]⟩ b2 hsc) hbc))
      (broadcast ⟨2, ![A, B]⟩ (Scalar.ofBits (F := Ideal) .f32 0x00000000#32))
      = layer h agg w1 b1 w2 b2 := by
  rw [shapeCast_self (v := h)]
  exact tile_eq d1 hr1 hs1 hlc1 hrc1 hl1 hrr1 d2 hr2 hs2 hlc2 hrc2 hl2 hrr2 h agg w1 b1 w2 b2 hc hsc hbc hbits

end Tile

end Cert.GinLayer

end
-- ==== Proof.LibThreeBlocks.lean ====
/-
  Three matrices of equal height joined along the column axis, read at a column.

  For x0 of w0 columns, x1 of w1 columns and x2 of w2 columns, the joined matrix [x0 | x1 | x2] at row a and column b is
  x0 at (a, k) when b = k, x1 at (a, k) when b = w0 + k, and x2 at (a, k) when b = w0 + w1 + k: the column is given
  by its offset inside its own block, which is the form a sum over the joined axis takes once it is cut into its
  three bands.
-/
import Idealize.ShloMosaic.Lib.ValueIdx
import Idealize.ShloMosaic.Lib.Pipeline.Value

noncomputable section

namespace Cert.LibThreeBlocks

open Idealize.ShloMosaic Idealize.ShloMosaic.ValueIdx

variable {α : Type} {A w0 w1 w2 B : ℕ}
  (x0 : (⟨2, ![A, w0]⟩ : Shape).Idx → α) (x1 : (⟨2, ![A, w1]⟩ : Shape).Idx → α) (x2 : (⟨2, ![A, w2]⟩ : Shape).Idx → α)
  (h : Shape.Concatenates [⟨2, ![A, w0]⟩, ⟨2, ![A, w1]⟩, ⟨2, ![A, w2]⟩] ⟨2, ![A, B]⟩ 1)
  (a : Fin A)

/-- [x0 | x1 | x2] at column k of the first block. -/
theorem cat3_0 (k : Fin w0) (b : Fin B) (hb : b.val = k.val) :
    concatenate ⟨2, ![A, B]⟩ 1 [⟨⟨2, ![A, w0]⟩, x0⟩, ⟨⟨2, ![A, w1]⟩, x1⟩, ⟨⟨2, ![A, w2]⟩, x2⟩] h (ix2 a b) = x0 (ix2 a k) :=
  concatenate_apply_piece 1 [⟨⟨2, ![A, w0]⟩, x0⟩, ⟨⟨2, ![A, w1]⟩, x1⟩, ⟨⟨2, ![A, w2]⟩, x2⟩] h (ix2 a b) 0 (by simp) _ x0 rfl rfl 0 rfl
    (ix2 a k)
    (fun d hd => by
      match d with
      | ⟨0, _⟩ => rfl
      | ⟨1, _⟩ => exact absurd rfl hd)
    (by show 0 + k.val = b.val; omega)

/-- [x0 | x1 | x2] at column k of the second block. -/
theorem cat3_1 (k : Fin w1) (b : Fin B) (hb : b.val = w0 + k.val) :
    concatenate ⟨2, ![A, B]⟩ 1 [⟨⟨2, ![A, w0]⟩, x0⟩, ⟨⟨2, ![A, w1]⟩, x1⟩, ⟨⟨2, ![A, w2]⟩, x2⟩] h (ix2 a b) = x1 (ix2 a k) :=
  concatenate_apply_piece 1 [⟨⟨2, ![A, w0]⟩, x0⟩, ⟨⟨2, ![A, w1]⟩, x1⟩, ⟨⟨2, ![A, w2]⟩, x2⟩] h (ix2 a b) 1 (by simp) _ x1 rfl rfl w0 (by simp)
    (ix2 a k)
    (fun d hd => by
      match d with
      | ⟨0, _⟩ => rfl
      | ⟨1, _⟩ => exact absurd rfl hd)
    (by show w0 + k.val = b.val; omega)

/-- [x0 | x1 | x2] at column k of the third block. -/
theorem cat3_2 (k : Fin w2) (b : Fin B) (hb : b.val = w0 + w1 + k.val) :
    concatenate ⟨2, ![A, B]⟩ 1 [⟨⟨2, ![A, w0]⟩, x0⟩, ⟨⟨2, ![A, w1]⟩, x1⟩, ⟨⟨2, ![A, w2]⟩, x2⟩] h (ix2 a b) = x2 (ix2 a k) :=
  concatenate_apply_piece 1 [⟨⟨2, ![A, w0]⟩, x0⟩, ⟨⟨2, ![A, w1]⟩, x1⟩, ⟨⟨2, ![A, w2]⟩, x2⟩] h (ix2 a b) 2 (by simp) _ x2 rfl rfl (w0 + w1) (by simp)
    (ix2 a k)
    (fun d hd => by
      match d with
      | ⟨0, _⟩ => rfl
      | ⟨1, _⟩ => exact absurd rfl hd)
    (by show w0 + w1 + k.val = b.val; omega)

end Cert.LibThreeBlocks

end
-- ==== Proof.LibSplitProduct.lean ====
/-
  A row made of two column blocks against a matrix, and a matrix cut into bands of rows, read at coordinates.

  A slice of a matrix that keeps every column and a run of rows starting at `off` reads, at `(a, b)`, the matrix at
  `(off + a, b)`. A sum over `N = m + n` indices is the sum over the first `m` plus the sum over the last `n`, in any
  commutative additive monoid. So the product of a row `[x₁ | x₂]` with a matrix `W`, as a sum over the joined
  coordinate, is the product of `x₁` with the top band of `W` plus the product of `x₂` with the bottom band. Every
  statement is over arbitrary extents and spells indices by their coordinates.
-/
import Idealize.ShloMosaic.Lib.ValueIdx
import Idealize.ShloMosaic.Lib.Pipeline.Value
import proofs.«134794_j18726057411221_1_alg».proof.Proof.LibColumnBlocks

noncomputable section

namespace Cert.LibSplitProduct

open Idealize.ShloMosaic Idealize.ShloMosaic.ValueIdx

variable {α : Type}

/-- Rows `off .. off + A' - 1` of an `A × B` matrix, at `(a, b)`: the matrix at `(k, b)` with `k = off + a`. -/
theorem slice_rows {A A' B : ℕ} (off : ℕ) (x : (⟨2, ![A, B]⟩ : Shape).Idx → α)
    (h : (⟨2, ![A, B]⟩ : Shape).Slices ![off, 0] ⟨2, ![A', B]⟩) (a : Fin A') (b : Fin B) (k : Fin A)
    (hk : k.val = off + a.val) :
    extractStridedSlice ⟨2, ![A', B]⟩ ![off, 0] x h (ix2 a b) = x (ix2 k b) :=
  extractStridedSlice_apply ![off, 0] x h (ix2 a b) (ix2 k b) fun d => by
    match d with
    | ⟨0, _⟩ => exact hk
    | ⟨1, _⟩ => show b.val = 0 + b.val; omega

/-- A sum over `N = m + n` indices: the first `m`, then the last `n`. -/
theorem sum_split {M : Type} [AddCommMonoid M] {N : ℕ} (m n : ℕ) (h : N = m + n) (f : Fin N → M) :
    ∑ k : Fin N, f k
      = ∑ k : Fin m, f ⟨k.val, by have := k.isLt; omega⟩ + ∑ k : Fin n, f ⟨m + k.val, by have := k.isLt; omega⟩ := by
  subst h
  rw [Fin.sum_univ_add]
  rfl

/-- The row `a` of `[x₁ | x₂]` against column `c` of `W`: `x₁`'s row against the top band plus `x₂`'s row against
    the bottom band. -/
theorem cat2_dot {A B1 B2 B C : ℕ} {M : Type} [AddCommMonoid M] [Mul M]
    (x₁ : (⟨2, ![A, B1]⟩ : Shape).Idx → M) (x₂ : (⟨2, ![A, B2]⟩ : Shape).Idx → M)
    (h : Shape.Concatenates [⟨2, ![A, B1]⟩, ⟨2, ![A, B2]⟩] ⟨2, ![A, B]⟩ 1) (W : (⟨2, ![B, C]⟩ : Shape).Idx → M)
    (hB : B = B1 + B2) (a : Fin A) (c : Fin C) :
    ∑ k : Fin B, concatenate ⟨2, ![A, B]⟩ 1 [⟨⟨2, ![A, B1]⟩, x₁⟩, ⟨⟨2, ![A, B2]⟩, x₂⟩] h (ix2 a k) * W (ix2 k c)
      = ∑ k : Fin B1, x₁ (ix2 a k) * W (ix2 ⟨k.val, by have := k.isLt; omega⟩ c)
        + ∑ k : Fin B2, x₂ (ix2 a k) * W (ix2 ⟨B1 + k.val, by have := k.isLt; omega⟩ c) := by
  rw [sum_split B1 B2 hB]
  congr 1
  · refine Finset.sum_congr rfl fun k _ => ?_
    rw [Cert.LibColumnBlocks.cat2_left x₁ x₂ h a ⟨k.val, by have := k.isLt; omega⟩ k.isLt]
  · refine Finset.sum_congr rfl fun k _ => ?_
    rw [Cert.LibColumnBlocks.cat2_right x₁ x₂ h a ⟨B1 + k.val, by have := k.isLt; omega⟩ (Nat.le_add_right _ _)
      (by show B1 + k.val - B1 < B2; have := k.isLt; omega)]
    congr 2
    exact congrArg (ix2 a) (Fin.ext (by show B1 + k.val - B1 = k.val; omega))

end Cert.LibSplitProduct

end
-- ==== Proof.LibJkProjection.lean ====
/-
  The jumping-knowledge projection: three feature arrays side by side against one weight matrix.

  For `x0 x1 x2 : [A, C]`, a weight matrix `w : [N, B]` with `N = C + C + C` rows and a bias row `b : [1, B]`,

      proj (a, q) = ((∑ k, x0 (a, k) · w (k, q)) + (∑ k, x1 (a, k) · w (C + k, q))) + (∑ k, x2 (a, k) · w (C + C + k, q)) + b (0, q).

  On the host this is the product of the three arrays joined along the column axis with `w`, plus the bias row stretched
  over all rows: the sum over the `N` joined columns splits into the three bands (`host_apply`).  On a tile of rows it is
  three accumulating products, each of one array against one band of rows sliced out of `w`, added up (`tile_eq`).  Both
  are the same finite sums, regrouped by associativity of addition only, so no finiteness is needed.  Row `a` of the
  result reads only row `a` of the three arrays (`proj_rows`).
-/
import Idealize.ShloMosaic.PureOps.Ideal.Laws
import Idealize.ShloMosaic.Lib.ValueIdx
import Idealize.ShloMosaic.Lib.ValueLayout
import Idealize.ShloMosaic.Lib.Pipeline.Value
import proofs.«134794_j18726057411221_1_alg».proof.Proof.LibColumnBlocks
import proofs.«134794_j18726057411221_1_alg».proof.Proof.LibAffineTiles
import proofs.«134794_j18726057411221_1_alg».proof.Proof.LibThreeBlocks
import proofs.«134794_j18726057411221_1_alg».proof.Proof.LibSplitProduct

noncomputable section

namespace Cert.JkLayer

open Idealize.ShloMosaic Idealize.ShloMosaic.ValueIdx Cert.LibAffineTiles

variable {A C B N : ℕ}

/-- The projection at `(p, q)`. -/
def projAt (hN : N = C + C + C) (x0 x1 x2 : FVec Ideal ⟨2, ![A, C]⟩ .f32) (w : FVec Ideal ⟨2, ![N, B]⟩ .f32)
    (b : FVec Ideal ⟨2, ![1, B]⟩ .f32) (p : Fin A) (q : Fin B) : EReal :=
  ((∑ k : Fin C, x0 (ix2 p k) * w (ix2 (⟨k.val, by have := k.isLt; omega⟩ : Fin N) q))
    + (∑ k : Fin C, x1 (ix2 p k) * w (ix2 (⟨C + k.val, by have := k.isLt; omega⟩ : Fin N) q)))
    + (∑ k : Fin C, x2 (ix2 p k) * w (ix2 (⟨C + C + k.val, by have := k.isLt; omega⟩ : Fin N) q))
    + b (ix2 (0 : Fin 1) q)

/-- The projection as a whole array. -/
def proj (hN : N = C + C + C) (x0 x1 x2 : FVec Ideal ⟨2, ![A, C]⟩ .f32) (w : FVec Ideal ⟨2, ![N, B]⟩ .f32)
    (b : FVec Ideal ⟨2, ![1, B]⟩ .f32) : FVec Ideal ⟨2, ![A, B]⟩ .f32 :=
  fun i => projAt hN x0 x1 x2 w b (i 0) (i 1)

theorem proj_apply (hN : N = C + C + C) (x0 x1 x2 : FVec Ideal ⟨2, ![A, C]⟩ .f32) (w : FVec Ideal ⟨2, ![N, B]⟩ .f32)
    (b : FVec Ideal ⟨2, ![1, B]⟩ .f32) (p : Fin A) (q : Fin B) :
    proj hN x0 x1 x2 w b (ix2 p q) = projAt hN x0 x1 x2 w b p q := rfl

/-- Row `p` of the projection of one triple is row `p'` of the projection of another as soon as those rows agree. -/
theorem proj_rows {A' : ℕ} (hN : N = C + C + C) (x0 x1 x2 : FVec Ideal ⟨2, ![A, C]⟩ .f32)
    (y0 y1 y2 : FVec Ideal ⟨2, ![A', C]⟩ .f32) (w : FVec Ideal ⟨2, ![N, B]⟩ .f32) (b : FVec Ideal ⟨2, ![1, B]⟩ .f32)
    (p : Fin A) (p' : Fin A') (q : Fin B)
    (h0 : ∀ k : Fin C, x0 (ix2 p k) = y0 (ix2 p' k)) (h1 : ∀ k : Fin C, x1 (ix2 p k) = y1 (ix2 p' k))
    (h2 : ∀ k : Fin C, x2 (ix2 p k) = y2 (ix2 p' k)) :
    proj hN x0 x1 x2 w b (ix2 p q) = proj hN y0 y1 y2 w b (ix2 p' q) := by
  rw [proj_apply, proj_apply]
  unfold projAt
  refine congrArg (· + b (ix2 (0 : Fin 1) q)) (congrArg₂ (· + ·) (congrArg₂ (· + ·) ?_ ?_) ?_)
  · exact Finset.sum_congr rfl fun k _ => by rw [h0 k]
  · exact Finset.sum_congr rfl fun k _ => by rw [h1 k]
  · exact Finset.sum_congr rfl fun k _ => by rw [h2 k]

section Host
variable
  (d : DotDims ⟨2, ![A, N]⟩ ⟨2, ![N, B]⟩ ⟨2, ![A, B]⟩)
  (hr : d.contr.rank = 1) (hs : d.contr.size ⟨0, by omega⟩ = N)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's spelling: the three arrays joined along the column axis, times `w`, plus the bias row over all rows. -/
theorem host_eq (hN : N = C + C + C) (x0 x1 x2 : FVec Ideal ⟨2, ![A, C]⟩ .f32) (w : FVec Ideal ⟨2, ![N, B]⟩ .f32)
    (b : FVec Ideal ⟨2, ![1, B]⟩ .f32)
    (hcat : Shape.Concatenates [⟨2, ![A, C]⟩, ⟨2, ![A, C]⟩, ⟨2, ![A, C]⟩] ⟨2, ![A, N]⟩ 1)
    (hb : (⟨2, ![1, B]⟩ : Shape).BroadcastsInDim ⟨2, ![A, B]⟩ (![0, 1] : Fin 2 → Fin 2)) :
    addf (Host.dotGeneral d none
        (concatenate ⟨2, ![A, N]⟩ 1 [⟨⟨2, ![A, C]⟩, x0⟩, ⟨⟨2, ![A, C]⟩, x1⟩, ⟨⟨2, ![A, C]⟩, x2⟩] hcat : FVec Ideal ⟨2, ![A, N]⟩ .f32) w)
      (broadcastInDim ⟨2, ![A, B]⟩ (![0, 1] : Fin 2 → Fin 2) hb b) = proj hN x0 x1 x2 w b := by
  funext j
  obtain ⟨p, q, rfl⟩ : ∃ (p : Fin A) (q : Fin B), j = ix2 p q := ⟨j 0, j 1, eq_ix2 j⟩
  rw [whole_apply d hr hs hlc hrc hl0 hr1, proj_apply]
  unfold affineAt projAt
  refine congrArg (· + b (ix2 (0 : Fin 1) q)) ?_
  rw [LibSplitProduct.sum_split C (C + C) (by omega), LibSplitProduct.sum_split C C rfl, ← add_assoc]
  refine congrArg₂ (· + ·) (congrArg₂ (· + ·) ?_ ?_) ?_
  · exact Finset.sum_congr rfl fun k _ => by rw [LibThreeBlocks.cat3_0 x0 x1 x2 hcat p k _ rfl]
  · exact Finset.sum_congr rfl fun k _ => by rw [LibThreeBlocks.cat3_1 x0 x1 x2 hcat p k _ rfl]
  · refine Finset.sum_congr rfl fun k _ => ?_
    rw [LibThreeBlocks.cat3_2 x0 x1 x2 hcat p k _ (by show C + (C + k.val) = C + C + k.val; omega)]
    exact congrArg (fun i => x2 (ix2 p k) * w (ix2 i q)) (Fin.ext (by show C + (C + k.val) = C + C + k.val; omega))

end Host

section Tile
variable
  (d : DotDims ⟨2, ![A, C]⟩ ⟨2, ![C, B]⟩ ⟨2, ![A, B]⟩)
  (hr : d.contr.rank = 1) (hs : d.contr.size ⟨0, by omega⟩ = C)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The tile's printed form: each array recast to its own shape and through a change of float format, against the band
    of `w`'s rows at offset `0`, `o1 = C`, `o2 = C + C` (sliced out and through the same change of format), the three
    products into zero accumulators added up, plus the bias row over the tile's rows. -/
theorem tile_eq (hN : N = C + C + C) (o1 o2 : ℕ) (ho1 : C = o1) (ho2 : C + C = o2)
    (x0 x1 x2 : FVec Ideal ⟨2, ![A, C]⟩ .f32) (w : FVec Ideal ⟨2, ![N, B]⟩ .f32) (b : FVec Ideal ⟨2, ![1, B]⟩ .f32)
    (hc : (⟨2, ![A, C]⟩ : Shape).ShapeCasts ⟨2, ![A, C]⟩)
    (hs0 : (⟨2, ![N, B]⟩ : Shape).Slices ![0, 0] ⟨2, ![C, B]⟩) (hs1 : (⟨2, ![N, B]⟩ : Shape).Slices ![o1, 0] ⟨2, ![C, B]⟩)
    (hs2 : (⟨2, ![N, B]⟩ : Shape).Slices ![o2, 0] ⟨2, ![C, B]⟩)
    (hsc : (⟨2, ![1, B]⟩ : Shape).ShapeCasts ⟨2, ![1, B]⟩) (hbc : (⟨2, ![1, B]⟩ : Shape).Broadcasts ⟨2, ![A, B]⟩)
    (hbits : FTy.bf16.bits < FTy.f32.bits) :
    addf
      (addf
        (addf
          (matmul d none (truncf .bf16 (shapeCast ⟨2, ![A, C]⟩ x0 hc) hbits)
            (truncf .bf16 (extractStridedSlice ⟨2, ![C, B]⟩ ![0, 0] w hs0) hbits) (constant ⟨2, ![A, B]⟩ .f32 0x00000000#32))
          (matmul d none (truncf .bf16 (shapeCast ⟨2, ![A, C]⟩ x1 hc) hbits)
            (truncf .bf16 (extractStridedSlice ⟨2, ![C, B]⟩ ![o1, 0] w hs1) hbits) (constant ⟨2, ![A, B]⟩ .f32 0x00000000#32)))
        (matmul d none (truncf .bf16 (shapeCast ⟨2, ![A, C]⟩ x2 hc) hbits)
          (truncf .bf16 (extractStridedSlice ⟨2, ![C, B]⟩ ![o2, 0] w hs2) hbits) (constant ⟨2, ![A, B]⟩ .f32 0x00000000#32)))
      (broadcastTo ⟨2, ![A, B]⟩ (shapeCast ⟨2, ![1, B]⟩ b hsc) hbc)
      = proj hN x0 x1 x2 w b := by
  subst ho1 ho2
  rw [shapeCast_self, shapeCast_self, shapeCast_self]
  funext j
  obtain ⟨p, q, rfl⟩ : ∃ (p : Fin A) (q : Fin B), j = ix2 p q := ⟨j 0, j 1, eq_ix2 j⟩
  rw [proj_apply, addf_apply, addf_apply, addf_apply,
    LibColumnBlocks.matmul_zero_apply d hr hs hlc hrc hl0 hr1, LibColumnBlocks.matmul_zero_apply d hr hs hlc hrc hl0 hr1,
    LibColumnBlocks.matmul_zero_apply d hr hs hlc hrc hl0 hr1, rowOver_apply]
  unfold projAt
  refine congrArg (· + b (ix2 (0 : Fin 1) q)) (congrArg₂ (· + ·) (congrArg₂ (· + ·) ?_ ?_) ?_)
  · exact Finset.sum_congr rfl fun k _ => congrArg (x0 (ix2 p k) * ·)
      (LibSplitProduct.slice_rows 0 w hs0 k q ⟨k.val, by have := k.isLt; omega⟩ (by show k.val = 0 + k.val; omega))
  · exact Finset.sum_congr rfl fun k _ => congrArg (x1 (ix2 p k) * ·)
      (LibSplitProduct.slice_rows C w hs1 k q ⟨C + k.val, by have := k.isLt; omega⟩ rfl)
  · exact Finset.sum_congr rfl fun k _ => congrArg (x2 (ix2 p k) * ·)
      (LibSplitProduct.slice_rows (C + C) w hs2 k q ⟨C + C + k.val, by have := k.isLt; omega⟩ rfl)

end Tile

end Cert.JkLayer

end
-- ==== Proof.LibClassifierHead.lean ====
/-
  The graph classifier's head on the pooled features, over the extended reals.

  For pooled features `g : [A, H]`, weights `w1 : [H, H]`, `w2 : [H, B]` and rows `b1 rm rs gam bet : [1, H]`, `b2 : [1, B]`,

      norm (a, k) = max ((((g · w1 + b1) (a, k) − rm (0, k)) · rs (0, k)) · gam (0, k) + bet (0, k)) 0
      head (a, q) = (∑ k, norm (a, k) · w2 (k, q)) + b2 (0, q)

  — a dense layer, a batch normalisation in inference mode (the reciprocal standard deviation `rs` given as a row)
  followed by a maximum with zero, and a second dense layer.  The host spells it with products and rows stretched over all
  rows (`host_eq`); a kernel body spells it with accumulating products into zero accumulators, operands through a change of
  float format, rows broadcast over the block's rows, and computes `rs` itself as the reciprocal square root of a variance
  row plus a constant (`tile_eq`).  Both are the same expression entry by entry; nothing is reassociated, so no finiteness
  is needed.  `rsRow_eq`: the reciprocal square root taken on a vector and then placed as a row is the one taken on the
  row.
-/
import Idealize.ShloMosaic.PureOps.Ideal.Laws
import Idealize.ShloMosaic.Lib.ValueIdx
import Idealize.ShloMosaic.Lib.ValueLayout
import Idealize.ShloMosaic.Lib.Pipeline.Value
import proofs.«134794_j18726057411221_1_alg».proof.Proof.LibColumnBlocks
import proofs.«134794_j18726057411221_1_alg».proof.Proof.LibCastForms
import proofs.«134794_j18726057411221_1_alg».proof.Proof.LibAffineTiles

noncomputable section

namespace Cert.Classifier

open Idealize.ShloMosaic Idealize.ShloMosaic.ValueIdx Cert.LibAffineTiles

variable {A H B : ℕ}

/-- The normalised, clamped hidden features at `(p, k)`. -/
def normAt (g1 : FVec Ideal ⟨2, ![A, H]⟩ .f32) (rm rs gam bet : FVec Ideal ⟨2, ![1, H]⟩ .f32) (p : Fin A) (k : Fin H) : EReal :=
  max ((((g1 (ix2 p k) - rm (ix2 (0 : Fin 1) k)) * rs (ix2 (0 : Fin 1) k)) * gam (ix2 (0 : Fin 1) k)) + bet (ix2 (0 : Fin 1) k))
    (Ideal.ofBits .f32 0x00000000#32)

/-- … as a whole array. -/
def norm (g1 : FVec Ideal ⟨2, ![A, H]⟩ .f32) (rm rs gam bet : FVec Ideal ⟨2, ![1, H]⟩ .f32) : FVec Ideal ⟨2, ![A, H]⟩ .f32 :=
  fun i => normAt g1 rm rs gam bet (i 0) (i 1)

/-- The head: dense layer, normalisation with its maximum, dense layer. -/
def head (g : FVec Ideal ⟨2, ![A, H]⟩ .f32) (w1 : FVec Ideal ⟨2, ![H, H]⟩ .f32) (b1 rm rs gam bet : FVec Ideal ⟨2, ![1, H]⟩ .f32)
    (w2 : FVec Ideal ⟨2, ![H, B]⟩ .f32) (b2 : FVec Ideal ⟨2, ![1, B]⟩ .f32) : FVec Ideal ⟨2, ![A, B]⟩ .f32 :=
  affine (norm (affine g w1 b1) rm rs gam bet) w2 b2

/-- A `[1, B]` row broadcast over `A` rows, at `(p, q)`, is the row's entry `q`. -/
theorem rowOnly_apply {α : Type} {A B : ℕ} (v : (⟨2, ![1, B]⟩ : Shape).Idx → α)
    (hbc : (⟨2, ![1, B]⟩ : Shape).Broadcasts ⟨2, ![A, B]⟩) (p : Fin A) (q : Fin B) :
    broadcastTo ⟨2, ![A, B]⟩ v hbc (ix2 p q) = v (ix2 (0 : Fin 1) q) := by
  refine broadcastTo_apply v hbc (ix2 p q) (ix2 (0 : Fin 1) q) fun a => ?_
  match a with
  | ⟨0, _⟩ => exact (if_pos rfl).symm
  | ⟨1, _⟩ =>
    show q.val = if B = 1 then 0 else q.val
    split
    · have := q.isLt; omega
    · rfl

/-- The reciprocal square root of a variance vector plus a constant, placed as a row, is the reciprocal square root of
    the vector placed as a row plus the constant splat over the row. -/
theorem rsRow_eq (rv : FVec Ideal ⟨1, ![H]⟩ .f32) (eps : BitVec 32)
    (h1 : (⟨1, ![H]⟩ : Shape).BroadcastsInDim ⟨2, ![1, H]⟩ (![1] : Fin 1 → Fin 2))
    (h0 : (⟨0, ![]⟩ : Shape).BroadcastsInDim ⟨1, ![H]⟩ (![] : Fin 0 → Fin 1)) :
    rsqrt (addf (broadcastInDim ⟨2, ![1, H]⟩ (![1] : Fin 1 → Fin 2) h1 rv)
        (broadcast ⟨2, ![1, H]⟩ (Scalar.ofBits (F := Ideal) .f32 eps)))
      = broadcastInDim ⟨2, ![1, H]⟩ (![1] : Fin 1 → Fin 2) h1
          (Host.rsqrt (addf rv (broadcastInDim ⟨1, ![H]⟩ (![] : Fin 0 → Fin 1) h0 (constant (F := Ideal) ⟨0, ![]⟩ .f32 eps)))) := by
  funext j
  obtain ⟨z, k, rfl⟩ : ∃ (z : Fin 1) (k : Fin H), j = ix2 z k := ⟨j 0, j 1, eq_ix2 j⟩
  rw [LibCastForms.bcast_row]
  show Ideal.rsqrt (broadcastInDim ⟨2, ![1, H]⟩ (![1] : Fin 1 → Fin 2) h1 rv (ix2 z k) + Ideal.ofBits .f32 eps) = _
  rw [LibCastForms.bcast_row]
  show _ = Ideal.rsqrt (rv (ix1 k)
    + broadcastInDim ⟨1, ![H]⟩ (![] : Fin 0 → Fin 1) h0 (constant (F := Ideal) ⟨0, ![]⟩ .f32 eps) (ix1 k))
  rw [scalarOver_apply]
  rfl

section Forms
variable
  (d1 : DotDims ⟨2, ![A, H]⟩ ⟨2, ![H, H]⟩ ⟨2, ![A, H]⟩)
  (hr1 : d1.contr.rank = 1) (hs1 : d1.contr.size ⟨0, by omega⟩ = H)
  (hlc1 : d1.lhsContracting = [1]) (hrc1 : d1.rhsContracting = [0])
  (hl1 : ∀ j k, (d1.lhsIdx j k 0).val = (j 0).val) (hrr1 : ∀ j k, (d1.rhsIdx j k 1).val = (j 1).val)
  (d2 : DotDims ⟨2, ![A, H]⟩ ⟨2, ![H, B]⟩ ⟨2, ![A, B]⟩)
  (hr2 : d2.contr.rank = 1) (hs2 : d2.contr.size ⟨0, by omega⟩ = H)
  (hlc2 : d2.lhsContracting = [1]) (hrc2 : d2.rhsContracting = [0])
  (hl2 : ∀ j k, (d2.lhsIdx j k 0).val = (j 0).val) (hrr2 : ∀ j k, (d2.rhsIdx j k 1).val = (j 1).val)
  (g : FVec Ideal ⟨2, ![A, H]⟩ .f32) (w1 : FVec Ideal ⟨2, ![H, H]⟩ .f32) (b1 rm rs gam bet : FVec Ideal ⟨2, ![1, H]⟩ .f32)
  (w2 : FVec Ideal ⟨2, ![H, B]⟩ .f32) (b2 : FVec Ideal ⟨2, ![1, B]⟩ .f32)

include hr1 hs1 hlc1 hrc1 hl1 hrr1 hr2 hs2 hlc2 hrc2 hl2 hrr2 in
/-- The host's spelling is the head. -/
theorem host_eq (hbH : (⟨2, ![1, H]⟩ : Shape).BroadcastsInDim ⟨2, ![A, H]⟩ (![0, 1] : Fin 2 → Fin 2))
    (hbB : (⟨2, ![1, B]⟩ : Shape).BroadcastsInDim ⟨2, ![A, B]⟩ (![0, 1] : Fin 2 → Fin 2))
    (h0 : (⟨0, ![]⟩ : Shape).BroadcastsInDim ⟨2, ![A, H]⟩ (![] : Fin 0 → Fin 2)) :
    addf
      (Host.dotGeneral d2 none
        (maximumf
          (addf
            (mulf
              (mulf
                (subf
                  (addf (Host.dotGeneral d1 none g w1) (broadcastInDim ⟨2, ![A, H]⟩ (![0, 1] : Fin 2 → Fin 2) hbH b1))
                  (broadcastInDim ⟨2, ![A, H]⟩ (![0, 1] : Fin 2 → Fin 2) hbH rm))
                (broadcastInDim ⟨2, ![A, H]⟩ (![0, 1] : Fin 2 → Fin 2) hbH rs))
              (broadcastInDim ⟨2, ![A, H]⟩ (![0, 1] : Fin 2 → Fin 2) hbH gam))
            (broadcastInDim ⟨2, ![A, H]⟩ (![0, 1] : Fin 2 → Fin 2) hbH bet))
          (broadcastInDim ⟨2, ![A, H]⟩ (![] : Fin 0 → Fin 2) h0 (constant (F := Ideal) ⟨0, ![]⟩ .f32 0x00000000#32)))
        w2)
      (broadcastInDim ⟨2, ![A, B]⟩ (![0, 1] : Fin 2 → Fin 2) hbB b2)
      = head g w1 b1 rm rs gam bet w2 b2 := by
  funext j
  obtain ⟨p, q, rfl⟩ : ∃ (p : Fin A) (q : Fin B), j = ix2 p q := ⟨j 0, j 1, eq_ix2 j⟩
  rw [whole_apply d2 hr2 hs2 hlc2 hrc2 hl2 hrr2]
  show _ = affineAt (norm (affine g w1 b1) rm rs gam bet) w2 b2 p q
  unfold affineAt
  refine congrArg (· + b2 (ix2 (0 : Fin 1) q)) (Finset.sum_congr rfl fun k _ => congrArg (· * w2 (ix2 k q)) ?_)
  rw [maximumf_apply, addf_apply, mulf_apply, mulf_apply, subf_apply, whole_apply d1 hr1 hs1 hlc1 hrc1 hl1 hrr1,
    LibCastForms.bcast_1b_ab_apply, LibCastForms.bcast_1b_ab_apply, LibCastForms.bcast_1b_ab_apply,
    LibCastForms.bcast_1b_ab_apply, scalarOver_apply]
  rfl

include hr1 hs1 hlc1 hrc1 hl1 hrr1 hr2 hs2 hlc2 hrc2 hl2 hrr2 in
/-- A kernel body's spelling, the reciprocal standard deviation computed from a variance row `rv` and a constant
    word `eps`, is the head at that row. -/
theorem tile_eq (rv : FVec Ideal ⟨2, ![1, H]⟩ .f32) (eps : BitVec 32)
    (hcg : (⟨2, ![A, H]⟩ : Shape).ShapeCasts ⟨2, ![A, H]⟩)
    (hscH : (⟨2, ![1, H]⟩ : Shape).ShapeCasts ⟨2, ![1, H]⟩) (hbcH : (⟨2, ![1, H]⟩ : Shape).Broadcasts ⟨2, ![A, H]⟩)
    (hscB : (⟨2, ![1, B]⟩ : Shape).ShapeCasts ⟨2, ![1, B]⟩) (hbcB : (⟨2, ![1, B]⟩ : Shape).Broadcasts ⟨2, ![A, B]⟩)
    (hbits : FTy.bf16.bits < FTy.f32.bits) :
    addf
      (matmul d2 none
        (truncf .bf16
          (maximumf
            (addf
              (mulf
                (mulf
                  (subf
                    (addf
                      (matmul d1 none (truncf .bf16 (shapeCast ⟨2, ![A, H]⟩ g hcg) hbits) (truncf .bf16 w1 hbits)
                        (constant ⟨2, ![A, H]⟩ .f32 0x00000000#32))
                      (broadcastTo ⟨2, ![A, H]⟩ (shapeCast ⟨2, ![1, H]⟩ b1 hscH) hbcH))
                    (broadcastTo ⟨2, ![A, H]⟩ (shapeCast ⟨2, ![1, H]⟩ rm hscH) hbcH))
                  (broadcastTo ⟨2, ![A, H]⟩
                    (rsqrt (addf (shapeCast ⟨2, ![1, H]⟩ rv hscH) (broadcast ⟨2, ![1, H]⟩ (Scalar.ofBits (F := Ideal) .f32 eps))))
                    hbcH))
                (broadcastTo ⟨2, ![A, H]⟩ (shapeCast ⟨2, ![1, H]⟩ gam hscH) hbcH))
              (broadcastTo ⟨2, ![A, H]⟩ (shapeCast ⟨2, ![1, H]⟩ bet hscH) hbcH))
            (broadcast ⟨2, ![A, H]⟩ (Scalar.ofBits (F := Ideal) .f32 0x00000000#32)))
          hbits)
        (truncf .bf16 w2 hbits) (constant ⟨2, ![A, B]⟩ .f32 0x00000000#32))
      (broadcastTo ⟨2, ![A, B]⟩ (shapeCast ⟨2, ![1, B]⟩ b2 hscB) hbcB)
      = head g w1 b1 rm (rsqrt (addf rv (broadcast ⟨2, ![1, H]⟩ (Scalar.ofBits (F := Ideal) .f32 eps)))) gam bet w2 b2 := by
  rw [shapeCast_self (v := g), shapeCast_self (v := rv)]
  funext j
  obtain ⟨p, q, rfl⟩ : ∃ (p : Fin A) (q : Fin B), j = ix2 p q := ⟨j 0, j 1, eq_ix2 j⟩
  rw [addf_apply, LibColumnBlocks.matmul_zero_apply d2 hr2 hs2 hlc2 hrc2 hl2 hrr2, rowOver_apply]
  show _ = affineAt (norm (affine g w1 b1) rm _ gam bet) w2 b2 p q
  unfold affineAt
  refine congrArg (· + b2 (ix2 (0 : Fin 1) q)) (Finset.sum_congr rfl fun k _ => congrArg (· * w2 (ix2 k q)) ?_)
  rw [truncf_apply, maximumf_apply, addf_apply, mulf_apply, mulf_apply, subf_apply, addf_apply,
    LibColumnBlocks.matmul_zero_apply d1 hr1 hs1 hlc1 hrc1 hl1 hrr1, rowOver_apply, rowOver_apply, rowOver_apply, rowOver_apply,
    rowOnly_apply]
  rfl

end Forms

end Cert.Classifier

end
-- ==== Proof.RefStages.lean ====
/-
  The reference's run, stage by stage.

  The reference computes three graph-isomorphism layers (each: add the sum over incoming edges, two dense layers with a
  maximum with zero after each), joins the three results along the feature axis and projects them, sums the nodes of
  each graph, and applies the classifier's head.  Each stage of its run is read here as ONE function of the stages before
  it: the layers as `GinLayer.layer`, the projection as `JkLayer.proj`, the head as `Classifier.head`.  The gather
  and the two scatter-sums are not opened: they stay the reference's own operations applied to the stage before.
-/
import proofs.«134794_j18726057411221_1_alg».proof.Proof.Gen.ReferenceIdeal.Read
import proofs.«134794_j18726057411221_1_alg».proof.Proof.LibGinLayer
import proofs.«134794_j18726057411221_1_alg».proof.Proof.LibJkProjection
import proofs.«134794_j18726057411221_1_alg».proof.Proof.LibClassifierHead

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo
open Cert.LibAffineTiles

/-- One layer on the host — `max (max ((h + agg) · w1 + b1) 0 · w2 + b2) 0` with the bias rows stretched over all rows — is
    the layer function (two dense layers with their maxima, each the host's spelling of `affineMax`). -/
theorem hostLayer_eq {K : ℕ}
    (d1 : DotDims ⟨2, ![50000, K]⟩ ⟨2, ![K, 64]⟩ ⟨2, ![50000, 64]⟩)
    (hr1 : d1.contr.rank = 1) (hs1 : d1.contr.size ⟨0, by omega⟩ = K)
    (hlc1 : d1.lhsContracting = [1]) (hrc1 : d1.rhsContracting = [0])
    (hl1 : ∀ j k, (d1.lhsIdx j k 0).val = (j 0).val) (hrr1 : ∀ j k, (d1.rhsIdx j k 1).val = (j 1).val)
    (h agg : FVec Ideal ⟨2, ![50000, K]⟩ .f32) (w1 : FVec Ideal ⟨2, ![K, 64]⟩ .f32) (b1 : FVec Ideal S1x64 .f32)
    (w2 : FVec Ideal S64x64 .f32) (b2 : FVec Ideal S1x64 .f32) :
    maximumf
      (addf
        (Host.dotGeneral dot_S50000x64_S64x64_S50000x64_1_0_0_1_n_n none
          (maximumf
            (addf (Host.dotGeneral d1 none (addf h agg) w1) (broadcastInDim S50000x64 ![0, 1] bcast_S1x64_S50000x64_0_1 b1))
            (broadcastInDim S50000x64 ![] bcast_S_S50000x64 (constant (F := Ideal) S_ .f32 0x00000000#32)))
          w2)
        (broadcastInDim S50000x64 ![0, 1] bcast_S1x64_S50000x64_0_1 b2))
      (broadcastInDim S50000x64 ![] bcast_S_S50000x64 (constant (F := Ideal) S_ .f32 0x00000000#32))
      = GinLayer.layer h agg w1 b1 w2 b2 := by
  rw [whole_max_eq d1 hr1 hs1 hlc1 hrc1 hl1 hrr1,
    whole_max_eq dot_S50000x64_S64x64_S50000x64_1_0_0_1_n_n rfl rfl rfl rfl lhs_main_v20_0 rhs_main_v20_1]
  rfl

/-- The first layer's result. -/
theorem stage1 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v24 (F := Ideal) x0 x1 x3 x4 x5 x6
      = GinLayer.layer x0 (val_main_v13 (F := Ideal) x0 x1) x3 (val_main_v16 (F := Ideal) x4) x5 (val_main_v21 (F := Ideal) x6) :=
  hostLayer_eq dot_S50000x128_S128x64_S50000x64_1_0_0_1_n_n rfl rfl rfl rfl lhs_main_v15_0 rhs_main_v15_1
    x0 (val_main_v13 (F := Ideal) x0 x1) x3 (val_main_v16 (F := Ideal) x4) x5 (val_main_v21 (F := Ideal) x6)

/-- The second layer's result, from the first's. -/
theorem stage2 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v45 (F := Ideal) x0 x1 x3 x4 x5 x6 x7 x8 x9 x10
      = GinLayer.layer (val_main_v24 (F := Ideal) x0 x1 x3 x4 x5 x6) (val_main_v34 (F := Ideal) x0 x1 x3 x4 x5 x6) x7
          (val_main_v37 (F := Ideal) x8) x9 (val_main_v42 (F := Ideal) x10) :=
  hostLayer_eq dot_S50000x64_S64x64_S50000x64_1_0_0_1_n_n rfl rfl rfl rfl lhs_main_v20_0 rhs_main_v20_1
    (val_main_v24 (F := Ideal) x0 x1 x3 x4 x5 x6) (val_main_v34 (F := Ideal) x0 x1 x3 x4 x5 x6) x7
    (val_main_v37 (F := Ideal) x8) x9 (val_main_v42 (F := Ideal) x10)

/-- The third layer's result, from the second's. -/
theorem stage3 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v66 (F := Ideal) x0 x1 x3 x4 x5 x6 x7 x8 x9 x10 x11 x12 x13 x14
      = GinLayer.layer (val_main_v45 (F := Ideal) x0 x1 x3 x4 x5 x6 x7 x8 x9 x10) (val_main_v55 (F := Ideal) x0 x1 x3 x4 x5 x6 x7 x8 x9 x10) x11
          (val_main_v58 (F := Ideal) x12) x13 (val_main_v63 (F := Ideal) x14) :=
  hostLayer_eq dot_S50000x64_S64x64_S50000x64_1_0_0_1_n_n rfl rfl rfl rfl lhs_main_v20_0 rhs_main_v20_1
    (val_main_v45 (F := Ideal) x0 x1 x3 x4 x5 x6 x7 x8 x9 x10) (val_main_v55 (F := Ideal) x0 x1 x3 x4 x5 x6 x7 x8 x9 x10) x11
    (val_main_v58 (F := Ideal) x12) x13 (val_main_v63 (F := Ideal) x14)

/-- The projection of the three layers' results joined along the feature axis. -/
theorem stageJk (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S192x64, .f32⟩ : BufTy).Contents (Elt Ideal)) (x16 : (⟨S64, .f32⟩ : BufTy).Contents (Elt Ideal)) :
    val_main_v71 (F := Ideal) x0 x1 x3 x4 x5 x6 x7 x8 x9 x10 x11 x12 x13 x14 x15 x16
      = JkLayer.proj (C := 64) (N := 192) rfl (val_main_v24 (F := Ideal) x0 x1 x3 x4 x5 x6) (val_main_v45 (F := Ideal) x0 x1 x3 x4 x5 x6 x7 x8 x9 x10)
          (val_main_v66 (F := Ideal) x0 x1 x3 x4 x5 x6 x7 x8 x9 x10 x11 x12 x13 x14) x15 (val_main_v69 (F := Ideal) x16) :=
  JkLayer.host_eq dot_S50000x192_S192x64_S50000x64_1_0_0_1_n_n rfl rfl rfl rfl lhs_main_v68_0 rhs_main_v68_1 rfl
    (val_main_v24 (F := Ideal) x0 x1 x3 x4 x5 x6) (val_main_v45 (F := Ideal) x0 x1 x3 x4 x5 x6 x7 x8 x9 x10) (val_main_v66 (F := Ideal) x0 x1 x3 x4 x5 x6 x7 x8 x9 x10 x11 x12 x13 x14) x15
    (val_main_v69 (F := Ideal) x16) concatenates_S50000x64_S50000x64_S50000x64_S50000x192_d1 bcast_S1x64_S50000x64_0_1

/-- The classifier's head on the pooled features. -/
theorem stageHead (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S192x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64x10, .f32⟩ : BufTy).Contents (Elt Ideal)) (x24 : (⟨S10, .f32⟩ : BufTy).Contents (Elt Ideal)) :
    val_main_v98 (F := Ideal) x0 x1 x2 x3 x4 x5 x6 x7 x8 x9 x10 x11 x12 x13 x14 x15 x16 x17 x18 x19 x20 x21 x22 x23 x24
      = Classifier.head (val_main_v74 (F := Ideal) x0 x1 x2 x3 x4 x5 x6 x7 x8 x9 x10 x11 x12 x13 x14 x15 x16) x17 (val_main_v76 (F := Ideal) x18) (val_main_v79 (F := Ideal) x21)
          (val_main_v85 (F := Ideal) x22) (val_main_v88 (F := Ideal) x19) (val_main_v91 (F := Ideal) x20) x23
          (val_main_v96 (F := Ideal) x24) :=
  Classifier.host_eq dot_S256x64_S64x64_S256x64_1_0_0_1_n_n rfl rfl rfl rfl lhs_main_v75_0 rhs_main_v75_1
    dot_S256x64_S64x10_S256x10_1_0_0_1_n_n rfl rfl rfl rfl lhs_main_v95_0 rhs_main_v95_1
    (val_main_v74 (F := Ideal) x0 x1 x2 x3 x4 x5 x6 x7 x8 x9 x10 x11 x12 x13 x14 x15 x16) x17 (val_main_v76 (F := Ideal) x18) (val_main_v79 (F := Ideal) x21)
    (val_main_v85 (F := Ideal) x22) (val_main_v88 (F := Ideal) x19) (val_main_v91 (F := Ideal) x20) x23
    (val_main_v96 (F := Ideal) x24) bcast_S1x64_S256x64_0_1 bcast_S1x10_S256x10_0_1 bcast_S_S256x64

end Cert.ReferenceIdeal.Stages

end
-- ==== Proof.DotFacts.lean ====
/-
  The four matrix-product records of the kernels' bodies, read at coordinates: in each, the left operand's row is the
  output's row and the right operand's column is the output's column (the one remaining coordinate of each operand is
  the contracted one).  These are the side conditions under which an accumulating product reads, at (a, b), as the sum
  over k of lhs (a, k) · rhs (k, b).
-/
import proofs.«134794_j18726057411221_1_alg».proof.Proof.Gen.KernelIdeal

noncomputable section

namespace Cert.KernelIdeal.DotFacts

open Idealize.ShloMosaic Cert.KernelIdeal

/-- `dot_S5000x128_S128x64_S5000x64_1_0_0_1_n_n`: the left operand's row is the output's row. -/
theorem dotA_lhs (j : S5000x64.Idx) (k : dot_S5000x128_S128x64_S5000x64_1_0_0_1_n_n.contr.Idx) : (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- `dot_S5000x128_S128x64_S5000x64_1_0_0_1_n_n`: the right operand's column is the output's column. -/
theorem dotA_rhs (j : S5000x64.Idx) (k : dot_S5000x128_S128x64_S5000x64_1_0_0_1_n_n.contr.Idx) : (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- `dot_S5000x64_S64x64_S5000x64_1_0_0_1_n_n`: the left operand's row is the output's row. -/
theorem dotB_lhs (j : S5000x64.Idx) (k : dot_S5000x64_S64x64_S5000x64_1_0_0_1_n_n.contr.Idx) : (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- `dot_S5000x64_S64x64_S5000x64_1_0_0_1_n_n`: the right operand's column is the output's column. -/
theorem dotB_rhs (j : S5000x64.Idx) (k : dot_S5000x64_S64x64_S5000x64_1_0_0_1_n_n.contr.Idx) : (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- `dot_S256x64_S64x64_S256x64_1_0_0_1_n_n`: the left operand's row is the output's row. -/
theorem dotC_lhs (j : S256x64.Idx) (k : dot_S256x64_S64x64_S256x64_1_0_0_1_n_n.contr.Idx) : (dot_S256x64_S64x64_S256x64_1_0_0_1_n_n.lhsIdx j k 0).val = (j 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl

/-- `dot_S256x64_S64x64_S256x64_1_0_0_1_n_n`: the right operand's column is the output's column. -/
theorem dotC_rhs (j : S256x64.Idx) (k : dot_S256x64_S64x64_S256x64_1_0_0_1_n_n.contr.Idx) : (dot_S256x64_S64x64_S256x64_1_0_0_1_n_n.rhsIdx j k 1).val = (j 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- `dot_S256x64_S64x10_S256x10_1_0_0_1_n_n`: the left operand's row is the output's row. -/
theorem dotD_lhs (j : S256x10.Idx) (k : dot_S256x64_S64x10_S256x10_1_0_0_1_n_n.contr.Idx) : (dot_S256x64_S64x10_S256x10_1_0_0_1_n_n.lhsIdx j k 0).val = (j 0).val := by
  unfold DotDims.lhsIdx
  rw [dif_neg (show ¬(0 : Fin S256x64.rank) ∈ dot_S256x64_S64x10_S256x10_1_0_0_1_n_n.lhsBatch by decide),
    dif_pos (show (0 : Fin S256x64.rank) ∈ dot_S256x64_S64x10_S256x10_1_0_0_1_n_n.lhsNonContracting by decide)]
  rfl

/-- `dot_S256x64_S64x10_S256x10_1_0_0_1_n_n`: the right operand's column is the output's column. -/
theorem dotD_rhs (j : S256x10.Idx) (k : dot_S256x64_S64x10_S256x10_1_0_0_1_n_n.contr.Idx) : (dot_S256x64_S64x10_S256x10_1_0_0_1_n_n.rhsIdx j k 1).val = (j 1).val := by
  unfold DotDims.rhsIdx
  rw [dif_neg (show ¬(1 : Fin S64x10.rank) ∈ dot_S256x64_S64x10_S256x10_1_0_0_1_n_n.rhsBatch by decide),
    dif_pos (show (1 : Fin S64x10.rank) ∈ dot_S256x64_S64x10_S256x10_1_0_0_1_n_n.rhsNonContracting by decide)]
  rfl

end Cert.KernelIdeal.DotFacts

end
-- ==== Proof.Layer0Value.lean ====
/-
  Region 0 of the idealized kernel: the array its pipeline leaves.

  The region runs one graph-isomorphism layer over ten blocks of 5000 rows.  At grid point `t` the body loads rows
  `5000·t … 5000·t + 4999` of the node features and of the aggregated features, the whole weight matrices and bias rows,
  and stores `GinLayer.layer` of those blocks (`pay_eq`).  Since a row of the layer reads only that row of the two
  feature arrays, what point `t` writes back is block `t` of the layer of the WHOLE arrays as the region finds them
  (`flushed_eq`); the ten blocks cover the output array (`cover`), so after the region the output array is that layer
  (`final`).
-/
import proofs.«134794_j18726057411221_1_alg».proof.Proof.KernelIdealFrameP
import proofs.«134794_j18726057411221_1_alg».proof.Proof.LibGinLayer
import proofs.«134794_j18726057411221_1_alg».proof.Proof.DotFacts
import proofs.«134794_j18726057411221_1_alg».proof.Proof.LibBlockRows

set_option maxRecDepth 16384

noncomputable section

namespace Cert.KernelIdeal.Layer0

open Cert.KernelIdeal Cert.KernelIdeal.Gen Cert.KernelIdeal.GenP Cert.KernelIdeal.DotFacts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := LibBlockRows.zero_offsets

/-- The body's payload is the layer of its loaded blocks. -/
theorem pay_eq (x0 x1 : Vec Ideal S5000x128 .f32) (x2 : Vec Ideal S128x64 .f32) (x3 : Vec Ideal S1x64 .f32)
    (x4 : Vec Ideal S64x64 .f32) (x5 : Vec Ideal S1x64 .f32) :
    k0_pay1 (F := Ideal) x0 x1 x2 x3 x4 x5 = GinLayer.layer (A := 5000) (K := 128) (B := 64) x0 x1 x2 x3 x4 x5 :=
  GinLayer.tile_eq dot_S5000x128_S128x64_S5000x64_1_0_0_1_n_n rfl rfl rfl rfl dotA_lhs dotA_rhs
    dot_S5000x64_S64x64_S5000x64_1_0_0_1_n_n rfl rfl rfl rfl dotB_lhs dotB_rhs x0 x1 x2 x3 x4 x5 _ _ _ _

/-- The layer of the whole arrays as the region finds them. -/
def G (c : Dev nD) : FVec Ideal S50000x64 .f32 :=
  GinLayer.layer (A := 50000) (K := 128) (B := 64) (V c main_arg0) (V c main_v13) (V c main_arg3) (V c main_v14)
    (V c main_arg5) (V c main_v15)

/-- The printed index maps over the grid: the two feature windows and the output window move one block of rows per
    point; the weights and bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Feature window 0's block at point `t`, at a local index, is the array at the row `5000·t` further down. -/
theorem read0 (c : Dev nD) (t : Fin cfg0.N) (y : S5000x128.Idx) (i : S50000x128.Idx)
    (h0 : (i 0).val = t.val * 5000 + (y 0).val) (h1 : (i 1).val = (y 1).val) :
    iblk0 V c 0 t y = V c main_arg0 i := by
  show V c main_arg0 (((cfg0.win 0).blk t).view.emb y) = V c main_arg0 i
  refine congrArg _ (funext fun a => Fin.ext ?_)
  obtain ⟨e0, e1, -⟩ := idx_facts t
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The same for feature window 1. -/
theorem read1 (c : Dev nD) (t : Fin cfg0.N) (y : S5000x128.Idx) (i : S50000x128.Idx)
    (h0 : (i 0).val = t.val * 5000 + (y 0).val) (h1 : (i 1).val = (y 1).val) :
    iblk0 V c 1 t y = V c main_v13 i := by
  show V c main_v13 (((cfg0.win 1).blk t).view.emb y) = V c main_v13 i
  refine congrArg _ (funext fun a => Fin.ext ?_)
  obtain ⟨-, -, e0, e1, -⟩ := idx_facts t
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The first weight matrix's window holds the whole matrix at every point. -/
theorem read2 (c : Dev nD) (t : Fin cfg0.N) : (iblk0 V c 2 t : S128x64.Idx → Ideal .f32) = V c main_arg3 := by
  funext y
  show V c main_arg3 (((cfg0.win 2).blk t).view.emb y) = V c main_arg3 y
  refine congrArg _ (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The first bias row's window holds the whole row. -/
theorem read3 (c : Dev nD) (t : Fin cfg0.N) : (iblk0 V c 3 t : S1x64.Idx → Ideal .f32) = V c main_v14 := by
  funext y
  show V c main_v14 (((cfg0.win 3).blk t).view.emb y) = V c main_v14 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight matrix's window holds the whole matrix. -/
theorem read4 (c : Dev nD) (t : Fin cfg0.N) : (iblk0 V c 4 t : S64x64.Idx → Ideal .f32) = V c main_arg5 := by
  funext y
  show V c main_arg5 (((cfg0.win 4).blk t).view.emb y) = V c main_arg5 y
  refine congrArg _ (funext fun a => Fin.ext ?_)
  obtain ⟨-, -, -, -, -, -, -, -, e0, e1, -⟩ := idx_facts t
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The second bias row's window holds the whole row. -/
theorem read5 (c : Dev nD) (t : Fin cfg0.N) : (iblk0 V c 5 t : S1x64.Idx → Ideal .f32) = V c main_v15 := by
  funext y
  show V c main_v15 (((cfg0.win 5).blk t).view.emb y) = V c main_v15 y
  refine congrArg _ (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- WHAT POINT `t` WRITES BACK is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz,
    View.ld_unit_zero (S := S64x64) hz]
  rw [pay_eq, read2 V c t, read3 V c t, read4 V c t, read5 V c t]
  funext j
  obtain ⟨p, q, rfl⟩ : ∃ (p : Fin 5000) (q : Fin 64), j = ix2 p q := ⟨j 0, j 1, eq_ix2 j⟩
  have ht : t.val < 10 := lt_of_lt_of_eq t.isLt (show cfg0.N = 10 from N_0)
  obtain ⟨-, -, -, -, -, -, -, -, -, -, -, -, e0, e1⟩ := idx_facts t
  have hemb : ((cfg0.win 6).blk t).view.emb (ix2 p q)
      = (ix2 (⟨t.val * 5000 + p.val, by have := p.isLt; omega⟩ : Fin 50000) q : S50000x64.Idx) := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  show GinLayer.layer _ _ _ _ _ _ (ix2 p q) = G V c (((cfg0.win 6).blk t).view.emb (ix2 p q))
  rw [hemb]
  exact GinLayer.layer_rows _ _ _ _ _ _ _ _ p _ q
    (fun k => read0 V c t (ix2 p k) (ix2 _ k) rfl rfl) (fun k => read1 V c t (ix2 p k) (ix2 _ k) rfl rfl)

/-- An index of the output array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v16).slice (win0_6.rect t)).set ↔ _
  rw [View.set_slice_whole, Rect.mem_set_unit]
  exact Iff.rfl

/-- Every index of the output array is in the block of the point its row falls in. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := ⟨(i 0).val / 5000, by rw [show cfg0.N = 10 from N_0]; omega⟩
  obtain ⟨-, -, -, -, -, -, -, -, -, -, -, -, e0, e1⟩ := idx_facts t
  have e0' : win0_6.index t (0 : Fin 2) = (i 0).val / 5000 := e0
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- THE ARRAY after the region: the layer of the arrays as the region finds them. -/
theorem final (c : Dev nD) : (dat0 V c).arrAt 6 cfg0.N = G V c :=
  (dat0 V c).arrAt_eq_of_cover 6 (G V c) (fun t _ => flushed_eq V c t) cover

end Cert.KernelIdeal.Layer0

end
-- ==== Proof.Layer1Value.lean ====
/-
  Region 1 of the idealized kernel: the array its pipeline leaves.

  The region runs one graph-isomorphism layer over ten blocks of 5000 rows.  At grid point `t` the body loads rows
  `5000·t … 5000·t + 4999` of the node features and of the aggregated features, the whole weight matrices and bias rows,
  and stores `GinLayer.layer` of those blocks (`pay_eq`).  Since a row of the layer reads only that row of the two
  feature arrays, what point `t` writes back is block `t` of the layer of the WHOLE arrays as the region finds them
  (`flushed_eq`); the ten blocks cover the output array (`cover`), so after the region the output array is that layer
  (`final`).
-/
import proofs.«134794_j18726057411221_1_alg».proof.Proof.KernelIdealFrameP
import proofs.«134794_j18726057411221_1_alg».proof.Proof.LibGinLayer
import proofs.«134794_j18726057411221_1_alg».proof.Proof.DotFacts
import proofs.«134794_j18726057411221_1_alg».proof.Proof.LibBlockRows

set_option maxRecDepth 16384

noncomputable section

namespace Cert.KernelIdeal.Layer1

open Cert.KernelIdeal Cert.KernelIdeal.Gen Cert.KernelIdeal.GenP Cert.KernelIdeal.DotFacts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := LibBlockRows.zero_offsets

/-- The body's payload is the layer of its loaded blocks. -/
theorem pay_eq (x0 x1 : Vec Ideal S5000x64 .f32) (x2 : Vec Ideal S64x64 .f32) (x3 : Vec Ideal S1x64 .f32)
    (x4 : Vec Ideal S64x64 .f32) (x5 : Vec Ideal S1x64 .f32) :
    k1_pay1 (F := Ideal) x0 x1 x2 x3 x4 x5 = GinLayer.layer (A := 5000) (K := 64) (B := 64) x0 x1 x2 x3 x4 x5 :=
  GinLayer.tile_eq' dot_S5000x64_S64x64_S5000x64_1_0_0_1_n_n rfl rfl rfl rfl dotB_lhs dotB_rhs
    dot_S5000x64_S64x64_S5000x64_1_0_0_1_n_n rfl rfl rfl rfl dotB_lhs dotB_rhs x0 x1 x2 x3 x4 x5 _ _ _ _

/-- The layer of the whole arrays as the region finds them. -/
def G (c : Dev nD) : FVec Ideal S50000x64 .f32 :=
  GinLayer.layer (A := 50000) (K := 64) (B := 64) (V c main_v16) (V c main_v26) (V c main_arg7) (V c main_v27)
    (V c main_arg9) (V c main_v28)

/-- The printed index maps over the grid: the two feature windows and the output window move one block of rows per
    point; the weights and bias rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Feature window 0's block at point `t`, at a local index, is the array at the row `5000·t` further down. -/
theorem read0 (c : Dev nD) (t : Fin cfg1.N) (y : S5000x64.Idx) (i : S50000x64.Idx)
    (h0 : (i 0).val = t.val * 5000 + (y 0).val) (h1 : (i 1).val = (y 1).val) :
    iblk1 V c 0 t y = V c main_v16 i := by
  show V c main_v16 (((cfg1.win 0).blk t).view.emb y) = V c main_v16 i
  refine congrArg _ (funext fun a => Fin.ext ?_)
  obtain ⟨e0, e1, -⟩ := idx_facts t
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The same for feature window 1. -/
theorem read1 (c : Dev nD) (t : Fin cfg1.N) (y : S5000x64.Idx) (i : S50000x64.Idx)
    (h0 : (i 0).val = t.val * 5000 + (y 0).val) (h1 : (i 1).val = (y 1).val) :
    iblk1 V c 1 t y = V c main_v26 i := by
  show V c main_v26 (((cfg1.win 1).blk t).view.emb y) = V c main_v26 i
  refine congrArg _ (funext fun a => Fin.ext ?_)
  obtain ⟨-, -, e0, e1, -⟩ := idx_facts t
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The first weight matrix's window holds the whole matrix at every point. -/
theorem read2 (c : Dev nD) (t : Fin cfg1.N) : (iblk1 V c 2 t : S64x64.Idx → Ideal .f32) = V c main_arg7 := by
  funext y
  show V c main_arg7 (((cfg1.win 2).blk t).view.emb y) = V c main_arg7 y
  refine congrArg _ (funext fun a => Fin.ext ?_)
  obtain ⟨-, -, -, -, e0, e1, -⟩ := idx_facts t
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The first bias row's window holds the whole row. -/
theorem read3 (c : Dev nD) (t : Fin cfg1.N) : (iblk1 V c 3 t : S1x64.Idx → Ideal .f32) = V c main_v27 := by
  funext y
  show V c main_v27 (((cfg1.win 3).blk t).view.emb y) = V c main_v27 y
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second weight matrix's window holds the whole matrix. -/
theorem read4 (c : Dev nD) (t : Fin cfg1.N) : (iblk1 V c 4 t : S64x64.Idx → Ideal .f32) = V c main_arg9 := by
  funext y
  show V c main_arg9 (((cfg1.win 4).blk t).view.emb y) = V c main_arg9 y
  refine congrArg _ (funext fun a => Fin.ext ?_)
  obtain ⟨-, -, -, -, -, -, -, -, e0, e1, -⟩ := idx_facts t
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The second bias row's window holds the whole row. -/
theorem read5 (c : Dev nD) (t : Fin cfg1.N) : (iblk1 V c 5 t : S1x64.Idx → Ideal .f32) = V c main_v28 := by
  funext y
  show V c main_v28 (((cfg1.win 5).blk t).view.emb y) = V c main_v28 y
  refine congrArg _ (funext fun a => Fin.ext ?_)
  obtain ⟨-, -, -, -, -, -, -, -, -, -, e0, e1, -⟩ := idx_facts t
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- WHAT POINT `t` WRITES BACK is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz,
    View.ld_unit_zero (S := S64x64) hz]
  rw [pay_eq, read2 V c t, read3 V c t, read4 V c t, read5 V c t]
  funext j
  obtain ⟨p, q, rfl⟩ : ∃ (p : Fin 5000) (q : Fin 64), j = ix2 p q := ⟨j 0, j 1, eq_ix2 j⟩
  have ht : t.val < 10 := lt_of_lt_of_eq t.isLt (show cfg1.N = 10 from N_1)
  obtain ⟨-, -, -, -, -, -, -, -, -, -, -, -, e0, e1⟩ := idx_facts t
  have hemb : ((cfg1.win 6).blk t).view.emb (ix2 p q)
      = (ix2 (⟨t.val * 5000 + p.val, by have := p.isLt; omega⟩ : Fin 50000) q : S50000x64.Idx) := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  show GinLayer.layer _ _ _ _ _ _ (ix2 p q) = G V c (((cfg1.win 6).blk t).view.emb (ix2 p q))
  rw [hemb]
  exact GinLayer.layer_rows _ _ _ _ _ _ _ _ p _ q
    (fun k => read0 V c t (ix2 p k) (ix2 _ k) rfl rfl) (fun k => read1 V c t (ix2 p k) (ix2 _ k) rfl rfl)

/-- An index of the output array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v29).slice (win1_6.rect t)).set ↔ _
  rw [View.set_slice_whole, Rect.mem_set_unit]
  exact Iff.rfl

/-- Every index of the output array is in the block of the point its row falls in. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨-, -, -, -, -, -, -, -, -, -, -, -, e0, e1⟩ := idx_facts t
  have e0' : win1_6.index t (0 : Fin 2) = (i 0).val / 5000 := e0
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- THE ARRAY after the region: the layer of the arrays as the region finds them. -/
theorem final (c : Dev nD) : (dat1 V c).arrAt 6 cfg1.N = G V c :=
  (dat1 V c).arrAt_eq_of_cover 6 (G V c) (fun t _ => flushed_eq V c t) cover

end Cert.KernelIdeal.Layer1

end
-- ==== Proof.Layer2Value.lean ====
/-
  Region 2 of the idealized kernel: the array its pipeline leaves.

  The region runs one graph-isomorphism layer over ten blocks of 5000 rows.  At grid point `t` the body loads rows
  `5000·t … 5000·t + 4999` of the node features and of the aggregated features, the whole weight matrices and bias rows,
  and stores `GinLayer.layer` of those blocks (`pay_eq`).  Since a row of the layer reads only that row of the two
  feature arrays, what point `t` writes back is block `t` of the layer of the WHOLE arrays as the region finds them
  (`flushed_eq`); the ten blocks cover the output array (`cover`), so after the region the output array is that layer
  (`final`).
-/
import proofs.«134794_j18726057411221_1_alg».proof.Proof.KernelIdealFrameP
import proofs.«134794_j18726057411221_1_alg».proof.Proof.LibGinLayer
import proofs.«134794_j18726057411221_1_alg».proof.Proof.DotFacts
import proofs.«134794_j18726057411221_1_alg».proof.Proof.LibBlockRows

set_option maxRecDepth 16384

noncomputable section

namespace Cert.KernelIdeal.Layer2

open Cert.KernelIdeal Cert.KernelIdeal.Gen Cert.KernelIdeal.GenP Cert.KernelIdeal.DotFacts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := LibBlockRows.zero_offsets

/-- The body's payload is the layer of its loaded blocks. -/
theorem pay_eq (x0 x1 : Vec Ideal S5000x64 .f32) (x2 : Vec Ideal S64x64 .f32) (x3 : Vec Ideal S1x64 .f32)
    (x4 : Vec Ideal S64x64 .f32) (x5 : Vec Ideal S1x64 .f32) :
    k2_pay1 (F := Ideal) x0 x1 x2 x3 x4 x5 = GinLayer.layer (A := 5000) (K := 64) (B := 64) x0 x1 x2 x3 x4 x5 :=
  GinLayer.tile_eq' dot_S5000x64_S64x64_S5000x64_1_0_0_1_n_n rfl rfl rfl rfl dotB_lhs dotB_rhs
    dot_S5000x64_S64x64_S5000x64_1_0_0_1_n_n rfl rfl rfl rfl dotB_lhs dotB_rhs x0 x1 x2 x3 x4 x5 _ _ _ _

/-- The layer of the whole arrays as the region finds them. -/
def G (c : Dev nD) : FVec Ideal S50000x64 .f32 :=
  GinLayer.layer (A := 50000) (K := 64) (B := 64) (V c main_v29) (V c main_v39) (V c main_arg11) (V c main_v40)
    (V c main_arg13) (V c main_v41)

/-- The printed index maps over the grid: the two feature windows and the output window move one block of rows per
    point; the weights and bias rows stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Feature window 0's block at point `t`, at a local index, is the array at the row `5000·t` further down. -/
theorem read0 (c : Dev nD) (t : Fin cfg2.N) (y : S5000x64.Idx) (i : S50000x64.Idx)
    (h0 : (i 0).val = t.val * 5000 + (y 0).val) (h1 : (i 1).val = (y 1).val) :
    iblk2 V c 0 t y = V c main_v29 i := by
  show V c main_v29 (((cfg2.win 0).blk t).view.emb y) = V c main_v29 i
  refine congrArg _ (funext fun a => Fin.ext ?_)
  obtain ⟨e0, e1, -⟩ := idx_facts t
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The same for feature window 1. -/
theorem read1 (c : Dev nD) (t : Fin cfg2.N) (y : S5000x64.Idx) (i : S50000x64.Idx)
    (h0 : (i 0).val = t.val * 5000 + (y 0).val) (h1 : (i 1).val = (y 1).val) :
    iblk2 V c 1 t y = V c main_v39 i := by
  show V c main_v39 (((cfg2.win 1).blk t).view.emb y) = V c main_v39 i
  refine congrArg _ (funext fun a => Fin.ext ?_)
  obtain ⟨-, -, e0, e1, -⟩ := idx_facts t
  match a with
  | ⟨0, _⟩ => show win2_1.index t (0 : Fin 2) * 5000 + 1 * (y 0).val = (i 0).val; omega
  | ⟨1, _⟩ => show win2_1.index t (1 : Fin 2) * 64 + 1 * (y 1).val = (i 1).val; omega

/-- The first weight matrix's window holds the whole matrix at every point. -/
theorem read2 (c : Dev nD) (t : Fin cfg2.N) : (iblk2 V c 2 t : S64x64.Idx → Ideal .f32) = V c main_arg11 := by
  funext y
  show V c main_arg11 (((cfg2.win 2).blk t).view.emb y) = V c main_arg11 y
  refine congrArg _ (funext fun a => Fin.ext ?_)
  obtain ⟨-, -, -, -, e0, e1, -⟩ := idx_facts t
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The first bias row's window holds the whole row. -/
theorem read3 (c : Dev nD) (t : Fin cfg2.N) : (iblk2 V c 3 t : S1x64.Idx → Ideal .f32) = V c main_v40 := by
  funext y
  show V c main_v40 (((cfg2.win 3).blk t).view.emb y) = V c main_v40 y
  refine congrArg _ (funext fun a => Fin.ext ?_)
  obtain ⟨-, -, -, -, -, -, e0, e1, -⟩ := idx_facts t
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight matrix's window holds the whole matrix. -/
theorem read4 (c : Dev nD) (t : Fin cfg2.N) : (iblk2 V c 4 t : S64x64.Idx → Ideal .f32) = V c main_arg13 := by
  funext y
  show V c main_arg13 (((cfg2.win 4).blk t).view.emb y) = V c main_arg13 y
  refine congrArg _ (funext fun a => Fin.ext ?_)
  obtain ⟨-, -, -, -, -, -, -, -, e0, e1, -⟩ := idx_facts t
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- The second bias row's window holds the whole row. -/
theorem read5 (c : Dev nD) (t : Fin cfg2.N) : (iblk2 V c 5 t : S1x64.Idx → Ideal .f32) = V c main_v41 := by
  funext y
  show V c main_v41 (((cfg2.win 5).blk t).view.emb y) = V c main_v41 y
  refine congrArg _ (funext fun a => Fin.ext ?_)
  obtain ⟨-, -, -, -, -, -, -, -, -, -, e0, e1, -⟩ := idx_facts t
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- WHAT POINT `t` WRITES BACK is block `t` of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz,
    View.ld_unit_zero (S := S64x64) hz]
  rw [pay_eq, read2 V c t, read3 V c t, read4 V c t, read5 V c t]
  funext j
  obtain ⟨p, q, rfl⟩ : ∃ (p : Fin 5000) (q : Fin 64), j = ix2 p q := ⟨j 0, j 1, eq_ix2 j⟩
  have ht : t.val < 10 := lt_of_lt_of_eq t.isLt (show cfg2.N = 10 from N_2)
  obtain ⟨-, -, -, -, -, -, -, -, -, -, -, -, e0, e1⟩ := idx_facts t
  have hemb : ((cfg2.win 6).blk t).view.emb (ix2 p q)
      = (ix2 (⟨t.val * 5000 + p.val, by have := p.isLt; omega⟩ : Fin 50000) q : S50000x64.Idx) := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  show GinLayer.layer _ _ _ _ _ _ (ix2 p q) = G V c (((cfg2.win 6).blk t).view.emb (ix2 p q))
  rw [hemb]
  exact GinLayer.layer_rows _ _ _ _ _ _ _ _ p _ q
    (fun k => read0 V c t (ix2 p k) (ix2 _ k) rfl rfl) (fun k => read1 V c t (ix2 p k) (ix2 _ k) rfl rfl)

/-- An index of the output array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v42).slice (win2_6.rect t)).set ↔ _
  rw [View.set_slice_whole, Rect.mem_set_unit]
  exact Iff.rfl

/-- Every index of the output array is in the block of the point its row falls in. -/
theorem cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, -, -, -, -, -, -, -, -, e0, e1⟩ := idx_facts t
  have e0' : win2_6.index t (0 : Fin 2) = (i 0).val / 5000 := e0
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- THE ARRAY after the region: the layer of the arrays as the region finds them. -/
theorem final (c : Dev nD) : (dat2 V c).arrAt 6 cfg2.N = G V c :=
  (dat2 V c).arrAt_eq_of_cover 6 (G V c) (fun t _ => flushed_eq V c t) cover

end Cert.KernelIdeal.Layer2

end
-- ==== Proof.JkValue.lean ====
/-
  Region 3 of the idealized kernel: the array its pipeline leaves.

  The region projects the three layers' results, joined along the feature axis, over ten blocks of 5000 rows.  At grid
  point `t` the body loads rows `5000·t … 5000·t + 4999` of each of the three arrays, the whole `[192, 64]` weight matrix
  and the bias row, and stores `JkLayer.proj` of those blocks (`pay_eq`).  A row of the projection reads only that row of
  the three arrays, so what point `t` writes back is block `t` of the projection of the WHOLE arrays as the region finds
  them (`flushed_eq`); the ten blocks cover the output array (`cover`), so after the region the output array is that
  projection (`final`).
-/
import proofs.«134794_j18726057411221_1_alg».proof.Proof.KernelIdealFrameP
import proofs.«134794_j18726057411221_1_alg».proof.Proof.LibJkProjection
import proofs.«134794_j18726057411221_1_alg».proof.Proof.DotFacts
import proofs.«134794_j18726057411221_1_alg».proof.Proof.LibBlockRows

set_option maxRecDepth 16384

noncomputable section

namespace Cert.KernelIdeal.Jk

open Cert.KernelIdeal Cert.KernelIdeal.Gen Cert.KernelIdeal.GenP Cert.KernelIdeal.DotFacts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := LibBlockRows.zero_offsets

/-- The body's payload is the projection of its loaded blocks. -/
theorem pay_eq (x0 x1 x2 : Vec Ideal S5000x64 .f32) (w : Vec Ideal S192x64 .f32) (b : Vec Ideal S1x64 .f32) :
    k3_pay1 (F := Ideal) w x0 x1 x2 b = JkLayer.proj (A := 5000) (C := 64) (B := 64) (N := 192) rfl x0 x1 x2 w b :=
  JkLayer.tile_eq dot_S5000x64_S64x64_S5000x64_1_0_0_1_n_n rfl rfl rfl rfl dotB_lhs dotB_rhs rfl 64 128 rfl rfl
    x0 x1 x2 w b _ _ _ _ _ _ _

/-- The projection of the whole arrays as the region finds them. -/
def G (c : Dev nD) : FVec Ideal S50000x64 .f32 :=
  JkLayer.proj (A := 50000) (C := 64) (B := 64) (N := 192) rfl (V c main_v16) (V c main_v29) (V c main_v42) (V c main_arg15)
    (V c main_v43)

/-- The printed index maps over the grid: the three feature windows and the output window move one block of rows per
    point; the weight matrix and the bias row stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Feature window 0's block at point `t`, at a local index, is the array at the row `5000·t` further down. -/
theorem read0 (c : Dev nD) (t : Fin cfg3.N) (y : S5000x64.Idx) (i : S50000x64.Idx)
    (h0 : (i 0).val = t.val * 5000 + (y 0).val) (h1 : (i 1).val = (y 1).val) :
    iblk3 V c 0 t y = V c main_v16 i := by
  show V c main_v16 (((cfg3.win 0).blk t).view.emb y) = V c main_v16 i
  refine congrArg _ (funext fun a => Fin.ext ?_)
  obtain ⟨e0, e1, -⟩ := idx_facts t
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- Feature window 1's block at point `t`, at a local index, is the array at the row `5000·t` further down. -/
theorem read1 (c : Dev nD) (t : Fin cfg3.N) (y : S5000x64.Idx) (i : S50000x64.Idx)
    (h0 : (i 0).val = t.val * 5000 + (y 0).val) (h1 : (i 1).val = (y 1).val) :
    iblk3 V c 1 t y = V c main_v29 i := by
  show V c main_v29 (((cfg3.win 1).blk t).view.emb y) = V c main_v29 i
  refine congrArg _ (funext fun a => Fin.ext ?_)
  obtain ⟨-, -, e0, e1, -⟩ := idx_facts t
  match a with
  | ⟨0, _⟩ => show win3_1.index t (0 : Fin 2) * 5000 + 1 * (y 0).val = (i 0).val; omega
  | ⟨1, _⟩ => show win3_1.index t (1 : Fin 2) * 64 + 1 * (y 1).val = (i 1).val; omega

/-- Feature window 2's block at point `t`, at a local index, is the array at the row `5000·t` further down. -/
theorem read2 (c : Dev nD) (t : Fin cfg3.N) (y : S5000x64.Idx) (i : S50000x64.Idx)
    (h0 : (i 0).val = t.val * 5000 + (y 0).val) (h1 : (i 1).val = (y 1).val) :
    iblk3 V c 2 t y = V c main_v42 i := by
  show V c main_v42 (((cfg3.win 2).blk t).view.emb y) = V c main_v42 i
  refine congrArg _ (funext fun a => Fin.ext ?_)
  obtain ⟨-, -, -, -, e0, e1, -⟩ := idx_facts t
  match a with
  | ⟨0, _⟩ => show win3_2.index t (0 : Fin 2) * 5000 + 1 * (y 0).val = (i 0).val; omega
  | ⟨1, _⟩ => show win3_2.index t (1 : Fin 2) * 64 + 1 * (y 1).val = (i 1).val; omega

/-- Window 3 holds its whole array at every point. -/
theorem read3 (c : Dev nD) (t : Fin cfg3.N) : (iblk3 V c 3 t : S192x64.Idx → Ideal .f32) = V c main_arg15 := by
  funext y
  show V c main_arg15 (((cfg3.win 3).blk t).view.emb y) = V c main_arg15 y
  refine congrArg _ (funext fun a => Fin.ext ?_)
  obtain ⟨-, -, -, -, -, -, e0, e1, -⟩ := idx_facts t
  match a with
  | ⟨0, _⟩ => show win3_3.index t (0 : Fin 2) * 192 + 1 * (y 0).val = (y 0).val; omega
  | ⟨1, _⟩ => show win3_3.index t (1 : Fin 2) * 64 + 1 * (y 1).val = (y 1).val; omega

/-- Window 4 holds its whole array at every point. -/
theorem read4 (c : Dev nD) (t : Fin cfg3.N) : (iblk3 V c 4 t : S1x64.Idx → Ideal .f32) = V c main_v43 := by
  funext y
  show V c main_v43 (((cfg3.win 4).blk t).view.emb y) = V c main_v43 y
  refine congrArg _ (funext fun a => Fin.ext ?_)
  obtain ⟨-, -, -, -, -, -, -, -, e0, e1, -⟩ := idx_facts t
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- WHAT POINT `t` WRITES BACK is block `t` of the projection of the whole arrays. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S192x64) hz, View.ld_unit_zero (S := S1x64) hz]
  rw [pay_eq, read3 V c t, read4 V c t]
  funext j
  obtain ⟨p, q, rfl⟩ : ∃ (p : Fin 5000) (q : Fin 64), j = ix2 p q := ⟨j 0, j 1, eq_ix2 j⟩
  have ht : t.val < 10 := lt_of_lt_of_eq t.isLt (show cfg3.N = 10 from N_3)
  obtain ⟨-, -, -, -, -, -, -, -, -, -, e0, e1⟩ := idx_facts t
  have hemb : ((cfg3.win 5).blk t).view.emb (ix2 p q)
      = (ix2 (⟨t.val * 5000 + p.val, by have := p.isLt; omega⟩ : Fin 50000) q : S50000x64.Idx) := by
    funext a; apply Fin.ext
    match a with
    | ⟨0, _⟩ => show win3_5.index t (0 : Fin 2) * 5000 + 1 * p.val = t.val * 5000 + p.val; omega
    | ⟨1, _⟩ => show win3_5.index t (1 : Fin 2) * 64 + 1 * q.val = q.val; omega
  show JkLayer.proj _ _ _ _ _ _ (ix2 p q) = G V c (((cfg3.win 5).blk t).view.emb (ix2 p q))
  rw [hemb]
  exact JkLayer.proj_rows rfl _ _ _ _ _ _ _ _ p _ q
    (fun k => read0 V c t (ix2 p k) (ix2 _ k) rfl rfl) (fun k => read1 V c t (ix2 p k) (ix2 _ k) rfl rfl)
    (fun k => read2 V c t (ix2 p k) (ix2 _ k) rfl rfl)

/-- An index of the output array is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v44).slice (win3_5.rect t)).set ↔ _
  rw [View.set_slice_whole, Rect.mem_set_unit]
  exact Iff.rfl

/-- Every index of the output array is in the block of the point its row falls in. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  let t : Fin cfg3.N := ⟨(i 0).val / 5000, by rw [show cfg3.N = 10 from N_3]; omega⟩
  obtain ⟨-, -, -, -, -, -, -, -, -, -, e0, e1⟩ := idx_facts t
  have e0' : win3_5.index t (0 : Fin 2) = (i 0).val / 5000 := e0
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- THE ARRAY after the region: the projection of the arrays as the region finds them. -/
theorem final (c : Dev nD) : (dat3 V c).arrAt 5 cfg3.N = G V c :=
  (dat3 V c).arrAt_eq_of_cover 5 (G V c) (fun t _ => flushed_eq V c t) cover

end Cert.KernelIdeal.Jk

end
-- ==== Proof.HeadValue.lean ====
/-
  Region 4 of the idealized kernel: the array its pipeline leaves.

  The region is one grid point: the body loads the pooled features `[256, 64]`, the two weight matrices and the six rows
  whole, and stores `Classifier.head` of them, the reciprocal standard deviation computed in the body as the reciprocal
  square root of the variance row plus the constant word (`pay_eq`).  Every window's one block is its whole array, so
  what the point writes back is that function of the arrays as the region finds them (`flushed_eq`), it covers the output
  array (`cover`), and after the region the output array is the head (`final`).
-/
import proofs.«134794_j18726057411221_1_alg».proof.Proof.KernelIdealFrameP
import proofs.«134794_j18726057411221_1_alg».proof.Proof.LibClassifierHead
import proofs.«134794_j18726057411221_1_alg».proof.Proof.DotFacts
import proofs.«134794_j18726057411221_1_alg».proof.Proof.LibBlockRows

set_option maxRecDepth 16384

noncomputable section

namespace Cert.KernelIdeal.Head

open Cert.KernelIdeal Cert.KernelIdeal.Gen Cert.KernelIdeal.GenP Cert.KernelIdeal.DotFacts
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := LibBlockRows.zero_offsets

/-- The body's payload is the head of its loaded blocks. -/
theorem pay_eq (x0 : Vec Ideal S256x64 .f32) (x1 : Vec Ideal S64x64 .f32) (x2 x3 x4 x5 x6 : Vec Ideal S1x64 .f32)
    (x7 : Vec Ideal S64x10 .f32) (x8 : Vec Ideal S1x10 .f32) :
    k4_pay1 (F := Ideal) (k4_pay2 (F := Ideal) x0 x1 x2 x5 x6 x3 x4 x7) (k4_pay3 (F := Ideal) x8)
      = Classifier.head (A := 256) (H := 64) (B := 10) x0 x1 x2 x5
          (rsqrt (addf x6 (broadcast S1x64 (Scalar.ofBits (F := Ideal) .f32 0x3727C5AC#32)))) x3 x4 x7 x8 :=
  Classifier.tile_eq dot_S256x64_S64x64_S256x64_1_0_0_1_n_n rfl rfl rfl rfl dotC_lhs dotC_rhs
    dot_S256x64_S64x10_S256x10_1_0_0_1_n_n rfl rfl rfl rfl dotD_lhs dotD_rhs x0 x1 x2 x5 x3 x4 x7 x8 x6 0x3727C5AC#32 _ _ _ _ _ _

/-- The head of the arrays as the region finds them. -/
def G (c : Dev nD) : FVec Ideal S256x10 .f32 :=
  Classifier.head (A := 256) (H := 64) (B := 10) (V c main_v47) (V c main_arg17) (V c main_v48) (V c main_v51)
    (rsqrt (addf (V c main_v52 : FVec Ideal S1x64 .f32) (broadcast S1x64 (Scalar.ofBits (F := Ideal) .f32 0x3727C5AC#32))))
    (V c main_v49) (V c main_v50) (V c main_arg23) (V c main_v53)

/-- The printed index maps at the one grid point: every window at block (0, 0). -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

/-- Window 0 holds its whole array at every point. -/
theorem read0 (c : Dev nD) (t : Fin cfg4.N) : (iblk4 V c 0 t : S256x64.Idx → Ideal .f32) = V c main_v47 := by
  funext y
  show V c main_v47 (((cfg4.win 0).blk t).view.emb y) = V c main_v47 y
  refine congrArg _ (funext fun a => Fin.ext ?_)
  obtain ⟨e0, e1, -⟩ := idx_facts t
  match a with
  | ⟨0, _⟩ => show win4_0.index t (0 : Fin 2) * 256 + 1 * (y 0).val = (y 0).val; omega
  | ⟨1, _⟩ => show win4_0.index t (1 : Fin 2) * 64 + 1 * (y 1).val = (y 1).val; omega

/-- Window 1 holds its whole array at every point. -/
theorem read1 (c : Dev nD) (t : Fin cfg4.N) : (iblk4 V c 1 t : S64x64.Idx → Ideal .f32) = V c main_arg17 := by
  funext y
  show V c main_arg17 (((cfg4.win 1).blk t).view.emb y) = V c main_arg17 y
  refine congrArg _ (funext fun a => Fin.ext ?_)
  obtain ⟨-, -, e0, e1, -⟩ := idx_facts t
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- Window 2 holds its whole array at every point. -/
theorem read2 (c : Dev nD) (t : Fin cfg4.N) : (iblk4 V c 2 t : S1x64.Idx → Ideal .f32) = V c main_v48 := by
  funext y
  show V c main_v48 (((cfg4.win 2).blk t).view.emb y) = V c main_v48 y
  refine congrArg _ (funext fun a => Fin.ext ?_)
  obtain ⟨-, -, -, -, e0, e1, -⟩ := idx_facts t
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Window 3 holds its whole array at every point. -/
theorem read3 (c : Dev nD) (t : Fin cfg4.N) : (iblk4 V c 3 t : S1x64.Idx → Ideal .f32) = V c main_v49 := by
  funext y
  show V c main_v49 (((cfg4.win 3).blk t).view.emb y) = V c main_v49 y
  refine congrArg _ (funext fun a => Fin.ext ?_)
  obtain ⟨-, -, -, -, -, -, e0, e1, -⟩ := idx_facts t
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- Window 4 holds its whole array at every point. -/
theorem read4 (c : Dev nD) (t : Fin cfg4.N) : (iblk4 V c 4 t : S1x64.Idx → Ideal .f32) = V c main_v50 := by
  funext y
  show V c main_v50 (((cfg4.win 4).blk t).view.emb y) = V c main_v50 y
  refine congrArg _ (funext fun a => Fin.ext ?_)
  obtain ⟨-, -, -, -, -, -, -, -, e0, e1, -⟩ := idx_facts t
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- Window 5 holds its whole array at every point. -/
theorem read5 (c : Dev nD) (t : Fin cfg4.N) : (iblk4 V c 5 t : S1x64.Idx → Ideal .f32) = V c main_v51 := by
  funext y
  show V c main_v51 (((cfg4.win 5).blk t).view.emb y) = V c main_v51 y
  refine congrArg _ (funext fun a => Fin.ext ?_)
  obtain ⟨-, -, -, -, -, -, -, -, -, -, e0, e1, -⟩ := idx_facts t
  match a with
  | ⟨0, _⟩ => show win4_5.index t (0 : Fin 2) * 1 + 1 * (y 0).val = (y 0).val; omega
  | ⟨1, _⟩ => show win4_5.index t (1 : Fin 2) * 64 + 1 * (y 1).val = (y 1).val; omega

/-- Window 6 holds its whole array at every point. -/
theorem read6 (c : Dev nD) (t : Fin cfg4.N) : (iblk4 V c 6 t : S1x64.Idx → Ideal .f32) = V c main_v52 := by
  funext y
  show V c main_v52 (((cfg4.win 6).blk t).view.emb y) = V c main_v52 y
  refine congrArg _ (funext fun a => Fin.ext ?_)
  obtain ⟨-, -, -, -, -, -, -, -, -, -, -, -, e0, e1, -⟩ := idx_facts t
  match a with
  | ⟨0, _⟩ => show win4_6.index t (0 : Fin 2) * 1 + 1 * (y 0).val = (y 0).val; omega
  | ⟨1, _⟩ => show win4_6.index t (1 : Fin 2) * 64 + 1 * (y 1).val = (y 1).val; omega

/-- Window 7 holds its whole array at every point. -/
theorem read7 (c : Dev nD) (t : Fin cfg4.N) : (iblk4 V c 7 t : S64x10.Idx → Ideal .f32) = V c main_arg23 := by
  funext y
  show V c main_arg23 (((cfg4.win 7).blk t).view.emb y) = V c main_arg23 y
  refine congrArg _ (funext fun a => Fin.ext ?_)
  obtain ⟨-, -, -, -, -, -, -, -, -, -, -, -, -, -, e0, e1, -⟩ := idx_facts t
  match a with
  | ⟨0, _⟩ => show win4_7.index t (0 : Fin 2) * 64 + 1 * (y 0).val = (y 0).val; omega
  | ⟨1, _⟩ => show win4_7.index t (1 : Fin 2) * 10 + 1 * (y 1).val = (y 1).val; omega

/-- Window 8 holds its whole array at every point. -/
theorem read8 (c : Dev nD) (t : Fin cfg4.N) : (iblk4 V c 8 t : S1x10.Idx → Ideal .f32) = V c main_v53 := by
  funext y
  show V c main_v53 (((cfg4.win 8).blk t).view.emb y) = V c main_v53 y
  refine congrArg _ (funext fun a => Fin.ext ?_)
  obtain ⟨-, -, -, -, -, -, -, -, -, -, -, -, -, -, -, -, e0, e1, -⟩ := idx_facts t
  match a with
  | ⟨0, _⟩ => show win4_8.index t (0 : Fin 2) * 1 + 1 * (y 0).val = (y 0).val; omega
  | ⟨1, _⟩ => show win4_8.index t (1 : Fin 2) * 10 + 1 * (y 1).val = (y 1).val; omega

/-- WHAT THE POINT WRITES BACK is the head of the arrays, read through the output's one block. -/
theorem flushed_eq (c : Dev nD) (t : Fin cfg4.N) :
    (dat4 V c).flushed 9 t = ((cfg4.win 9).blk t).view.read (Elt Ideal) (G V c) := by
  show (cfg4.win 9).cut (grid4.coords t) ((dat4 V c).after 9 t) = _
  rw [after4_9]
  unfold out4_9
  rw [View.canon_unit_zero hz]
  simp only [View.ld_unit_zero (S := S256x64) hz, View.ld_unit_zero (S := S64x64) hz, View.ld_unit_zero (S := S1x64) hz,
    View.ld_unit_zero (S := S64x10) hz, View.ld_unit_zero (S := S1x10) hz]
  rw [pay_eq, read0 V c t, read1 V c t, read2 V c t, read3 V c t, read4 V c t, read5 V c t, read6 V c t, read7 V c t, read8 V c t]
  funext j
  obtain ⟨-, -, -, -, -, -, -, -, -, -, -, -, -, -, -, -, -, -, e0, e1⟩ := idx_facts t
  have hemb : ((cfg4.win 9).blk t).view.emb j = j := by
    funext a; apply Fin.ext
    match a with
    | ⟨0, _⟩ => show win4_9.index t (0 : Fin 2) * 256 + 1 * (j 0).val = (j 0).val; omega
    | ⟨1, _⟩ => show win4_9.index t (1 : Fin 2) * 10 + 1 * (j 1).val = (j 1).val; omega
  show _ = G V c (((cfg4.win 9).blk t).view.emb j)
  rw [hemb]
  rfl

/-- An index of the output array is in the point's block iff each coordinate is in the block's range on its axis. -/
theorem mem_blk (t : Fin cfg4.N) (i : S256x10.Idx) :
    i ∈ ((cfg4.win 9).blk t).view.set ↔ ∀ a : Fin 2, win4_9.index t a * S256x10.size a ≤ (i a).val
      ∧ (i a).val < win4_9.index t a * S256x10.size a + S256x10.size a := by
  show i ∈ ((View.whole main_v54).slice (win4_9.rect t)).set ↔ _
  rw [View.set_slice_whole, Rect.mem_set_unit]
  exact Iff.rfl

/-- Every index of the output array is in the one block. -/
theorem cover (i : S256x10.Idx) :
    ∃ t : Fin cfg4.N, (cfg4.win 9).flush t = true ∧ i ∈ ((cfg4.win 9).blk t).view.set := by
  have hi0 : (i 0).val < 256 := (i 0).isLt
  have hi1 : (i 1).val < 10 := (i 1).isLt
  obtain ⟨-, -, -, -, -, -, -, -, -, -, -, -, -, -, -, -, -, -, e0, e1⟩ := idx_facts t4_0
  refine ⟨t4_0, flush4_9 t4_0, ?_⟩
  rw [mem_blk]
  intro a
  match a with
  | ⟨0, _⟩ =>
    show win4_9.index t4_0 (0 : Fin 2) * 256 ≤ (i 0).val ∧ (i 0).val < win4_9.index t4_0 (0 : Fin 2) * 256 + 256
    omega
  | ⟨1, _⟩ =>
    show win4_9.index t4_0 (1 : Fin 2) * 10 ≤ (i 1).val ∧ (i 1).val < win4_9.index t4_0 (1 : Fin 2) * 10 + 10
    omega

/-- THE ARRAY after the region: the head of the arrays as the region finds them. -/
theorem final (c : Dev nD) : (dat4 V c).arrAt 9 cfg4.N = G V c :=
  (dat4 V c).arrAt_eq_of_cover 9 (G V c) (fun t _ => flushed_eq V c t) cover

end Cert.KernelIdeal.Head

end
-- ==== Proof.Boundaries.lean ====
/-
  The buffer contents at every boundary of the idealized kernel's run, read as the reference's stages.

  The run passes ten boundaries: after each stretch of host operations and after each region.  A buffer that a stretch
  does not write and that is not an array of a region keeps its contents across it, so an argument of @main is found as
  launched at every boundary (`back1` … `back9`), and a layer's result stays where later stretches and regions read it.
  A stretch's own results are its operations applied to the contents before it (`after_results`); a region's output array
  is the layer, projection or head of its entry arrays (the region modules' `final`).  Going through the boundaries in
  order, every intermediate array of the kernel is the corresponding stage of the reference's run applied to the SAME
  arguments: the gather and the scatter-sums are the same host operations on both sides, applied to equal arrays, and are
  never opened.  At the last boundary the result buffer holds the reference's result (`W10_result`).
-/
import proofs.«134794_j18726057411221_1_alg».proof.Proof.KernelIdealFrameP
import proofs.«134794_j18726057411221_1_alg».proof.Proof.Gen.ReferenceIdeal.Read
import Idealize.ShloMosaic.Lib.StableHlo.Run
import proofs.«134794_j18726057411221_1_alg».proof.Proof.LibCastForms
import proofs.«134794_j18726057411221_1_alg».proof.Proof.RefStages
import proofs.«134794_j18726057411221_1_alg».proof.Proof.Layer0Value
import proofs.«134794_j18726057411221_1_alg».proof.Proof.Layer1Value
import proofs.«134794_j18726057411221_1_alg».proof.Proof.Layer2Value
import proofs.«134794_j18726057411221_1_alg».proof.Proof.JkValue
import proofs.«134794_j18726057411221_1_alg».proof.Proof.HeadValue

set_option maxRecDepth 16384

noncomputable section

namespace Cert.KernelIdeal.Fold

open Cert.KernelIdeal Cert.KernelIdeal.Gen Cert.KernelIdeal.GenP
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- One step back through a stretch of host operations none of which writes the buffer. -/
macro "host_step " ops:ident : tactic => `(tactic|
  refine (StableHlo.after_of_forall_not_mem $ops _ (List.forall_iff_forall_mem.mp (by
    simp only [$ops:ident, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))).trans ?_)

/-- Walk a buffer that nothing writes back from boundary `k` to the launch memory: a stretch of host operations that
    does not write it, a region none of whose arrays it is, alternately. -/
macro "back1" : tactic => `(tactic| (host_step hostOps0; exact rfl))
macro "back2" : tactic => `(tactic| (refine (W2_of_ne _ _ _ _ (by decide)).trans ?_; back1))
macro "back3" : tactic => `(tactic| (host_step hostOps1; back2))
macro "back4" : tactic => `(tactic| (refine (W4_of_ne _ _ _ _ (by decide)).trans ?_; back3))
macro "back5" : tactic => `(tactic| (host_step hostOps2; back4))
macro "back6" : tactic => `(tactic| (refine (W6_of_ne _ _ _ _ (by decide)).trans ?_; back5))
macro "back7" : tactic => `(tactic| (host_step hostOps3; back6))
macro "back8" : tactic => `(tactic| (refine (W8_of_ne _ _ _ _ (by decide)).trans ?_; back7))
macro "back9" : tactic => `(tactic| (host_step hostOps4; back8))

/-! ## Boundary 1: after the first stretch (region 0's entry) -/

theorem W1_arg0 (c : Dev nD) : W1 m ρ c (Proc.devRef .tc main_arg0) = m ((c : Thread nD τ).loc main_arg0) := by back1
theorem W1_arg3 (c : Dev nD) : W1 m ρ c (Proc.devRef .tc main_arg3) = m ((c : Thread nD τ).loc main_arg3) := by back1
theorem W1_arg5 (c : Dev nD) : W1 m ρ c (Proc.devRef .tc main_arg5) = m ((c : Thread nD τ).loc main_arg5) := by back1

/-- The source-node indices, computed once by the first stretch. -/
theorem W1_v1 (c : Dev nD) : W1 m ρ c (Proc.devRef .tc main_v1) = (Cert.ReferenceIdeal.Read.val_main_v1 (F := Ideal) (m ((c : Thread nD τ).loc main_arg1))) := by
  show StableHlo.after hostOps0 _ (Proc.devRef .tc main_v1) = _
  after_results
  rfl

/-- The target-node indices. -/
theorem W1_v3 (c : Dev nD) : W1 m ρ c (Proc.devRef .tc main_v3) = (Cert.ReferenceIdeal.Read.val_main_v3 (F := Ideal) (m ((c : Thread nD τ).loc main_arg1))) := by
  show StableHlo.after hostOps0 _ (Proc.devRef .tc main_v3) = _
  after_results
  rfl

set_option maxHeartbeats 1600000 in
/-- The first aggregation: the same gather and scatter-sum as the reference's, of the same arguments. -/
theorem W1_v13 (c : Dev nD) : W1 m ρ c (Proc.devRef .tc main_v13) = (Cert.ReferenceIdeal.Read.val_main_v13 (F := Ideal) (m ((c : Thread nD τ).loc main_arg0)) (m ((c : Thread nD τ).loc main_arg1))) := by
  show StableHlo.after hostOps0 _ (Proc.devRef .tc main_v13) = _
  after_results
  chain_rfl

/-- The bias row `main_v14` is argument 4 placed as a row. -/
theorem W1_v14 (c : Dev nD) : W1 m ρ c (Proc.devRef .tc main_v14) = (Cert.ReferenceIdeal.Read.val_main_v16 (F := Ideal) (m ((c : Thread nD τ).loc main_arg4))) := by
  show StableHlo.after hostOps0 _ (Proc.devRef .tc main_v14) = _
  after_results
  exact Cert.LibCastForms.row_cast_eq_bcast _ _ _

/-- The bias row `main_v15` is argument 6 placed as a row. -/
theorem W1_v15 (c : Dev nD) : W1 m ρ c (Proc.devRef .tc main_v15) = (Cert.ReferenceIdeal.Read.val_main_v21 (F := Ideal) (m ((c : Thread nD τ).loc main_arg6))) := by
  show StableHlo.after hostOps0 _ (Proc.devRef .tc main_v15) = _
  after_results
  exact Cert.LibCastForms.row_cast_eq_bcast _ _ _

/-! ## Boundary 2: after region 0 -/

/-- Region 0 leaves the first layer's result. -/
theorem W2_v16 (c : Dev nD) : W2 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W2_arr m ρ c 6).trans ((Layer0.final (V1 m ρ) c).trans ?_)
  show GinLayer.layer (W1 m ρ c (Proc.devRef .tc main_arg0)) (W1 m ρ c (Proc.devRef .tc main_v13)) (W1 m ρ c (Proc.devRef .tc main_arg3))
    (W1 m ρ c (Proc.devRef .tc main_v14)) (W1 m ρ c (Proc.devRef .tc main_arg5)) (W1 m ρ c (Proc.devRef .tc main_v15)) = _
  rw [W1_arg0 m ρ c, W1_v13 m ρ c, W1_arg3 m ρ c, W1_v14 m ρ c, W1_arg5 m ρ c, W1_v15 m ρ c]
  exact (Cert.ReferenceIdeal.Stages.stage1 _ _ _ _ _ _).symm

theorem W2_v1 (c : Dev nD) : W2 m ρ c (Proc.devRef .tc main_v1) = (Cert.ReferenceIdeal.Read.val_main_v1 (F := Ideal) (m ((c : Thread nD τ).loc main_arg1))) :=
  (W2_of_ne m ρ c main_v1 (by decide)).trans (W1_v1 m ρ c)
theorem W2_v3 (c : Dev nD) : W2 m ρ c (Proc.devRef .tc main_v3) = (Cert.ReferenceIdeal.Read.val_main_v3 (F := Ideal) (m ((c : Thread nD τ).loc main_arg1))) :=
  (W2_of_ne m ρ c main_v3 (by decide)).trans (W1_v3 m ρ c)
theorem W2_arg7 (c : Dev nD) : W2 m ρ c (Proc.devRef .tc main_arg7) = m ((c : Thread nD τ).loc main_arg7) := by back2
theorem W2_arg8 (c : Dev nD) : W2 m ρ c (Proc.devRef .tc main_arg8) = m ((c : Thread nD τ).loc main_arg8) := by back2
theorem W2_arg9 (c : Dev nD) : W2 m ρ c (Proc.devRef .tc main_arg9) = m ((c : Thread nD τ).loc main_arg9) := by back2
theorem W2_arg10 (c : Dev nD) : W2 m ρ c (Proc.devRef .tc main_arg10) = m ((c : Thread nD τ).loc main_arg10) := by back2

/-! ## Boundary 3: after the second stretch (region 1's entry) -/

theorem W3_v16 (c : Dev nD) : W3 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  host_step hostOps1
  exact W2_v16 m ρ c

set_option maxHeartbeats 1600000 in
/-- The second aggregation, of the first layer's result. -/
theorem W3_v26 (c : Dev nD) : W3 m ρ c (Proc.devRef .tc main_v26) = (Cert.ReferenceIdeal.Read.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps1 _ (Proc.devRef .tc main_v26) = _
  after_results
  simp only [W2_v16 m ρ c, W2_v1 m ρ c, W2_v3 m ρ c]
  try chain_rfl

theorem W3_arg7 (c : Dev nD) : W3 m ρ c (Proc.devRef .tc main_arg7) = m ((c : Thread nD τ).loc main_arg7) := by back3
theorem W3_arg9 (c : Dev nD) : W3 m ρ c (Proc.devRef .tc main_arg9) = m ((c : Thread nD τ).loc main_arg9) := by back3

/-- The bias row `main_v27` is argument 8 placed as a row. -/
theorem W3_v27 (c : Dev nD) : W3 m ρ c (Proc.devRef .tc main_v27) = (Cert.ReferenceIdeal.Read.val_main_v37 (F := Ideal) (m ((c : Thread nD τ).loc main_arg8))) := by
  show StableHlo.after hostOps1 _ (Proc.devRef .tc main_v27) = _
  after_results
  rw [W2_arg8 m ρ c]
  exact Cert.LibCastForms.row_cast_eq_bcast _ _ _

/-- The bias row `main_v28` is argument 10 placed as a row. -/
theorem W3_v28 (c : Dev nD) : W3 m ρ c (Proc.devRef .tc main_v28) = (Cert.ReferenceIdeal.Read.val_main_v42 (F := Ideal) (m ((c : Thread nD τ).loc main_arg10))) := by
  show StableHlo.after hostOps1 _ (Proc.devRef .tc main_v28) = _
  after_results
  rw [W2_arg10 m ρ c]
  exact Cert.LibCastForms.row_cast_eq_bcast _ _ _

/-! ## Boundary 4: after region 1 -/

/-- Region 1 leaves the second layer's result. -/
theorem W4_v29 (c : Dev nD) : W4 m ρ c (Proc.devRef .tc main_v29) = (Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 6).trans ((Layer1.final (V3 m ρ) c).trans ?_)
  show GinLayer.layer (W3 m ρ c (Proc.devRef .tc main_v16)) (W3 m ρ c (Proc.devRef .tc main_v26)) (W3 m ρ c (Proc.devRef .tc main_arg7))
    (W3 m ρ c (Proc.devRef .tc main_v27)) (W3 m ρ c (Proc.devRef .tc main_arg9)) (W3 m ρ c (Proc.devRef .tc main_v28)) = _
  rw [W3_v16 m ρ c, W3_v26 m ρ c, W3_arg7 m ρ c, W3_v27 m ρ c, W3_arg9 m ρ c, W3_v28 m ρ c]
  exact (Cert.ReferenceIdeal.Stages.stage2 _ _ _ _ _ _ _ _ _ _).symm

/-- The first layer's result is an input of region 1: the region leaves it as it found it. -/
theorem W4_v16 (c : Dev nD) : W4 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  ((W4_arr m ρ c 0).trans (((dat1 (V3 m ρ) c).arrAt_in 0 rfl _).trans (A_eq1 (V3 m ρ) c 0))).trans (W3_v16 m ρ c)

theorem W4_v1 (c : Dev nD) : W4 m ρ c (Proc.devRef .tc main_v1) = (Cert.ReferenceIdeal.Read.val_main_v1 (F := Ideal) (m ((c : Thread nD τ).loc main_arg1))) := by
  refine (W4_of_ne m ρ c main_v1 (by decide)).trans ?_
  host_step hostOps1
  exact W2_v1 m ρ c
theorem W4_v3 (c : Dev nD) : W4 m ρ c (Proc.devRef .tc main_v3) = (Cert.ReferenceIdeal.Read.val_main_v3 (F := Ideal) (m ((c : Thread nD τ).loc main_arg1))) := by
  refine (W4_of_ne m ρ c main_v3 (by decide)).trans ?_
  host_step hostOps1
  exact W2_v3 m ρ c
theorem W4_arg11 (c : Dev nD) : W4 m ρ c (Proc.devRef .tc main_arg11) = m ((c : Thread nD τ).loc main_arg11) := by back4
theorem W4_arg12 (c : Dev nD) : W4 m ρ c (Proc.devRef .tc main_arg12) = m ((c : Thread nD τ).loc main_arg12) := by back4
theorem W4_arg13 (c : Dev nD) : W4 m ρ c (Proc.devRef .tc main_arg13) = m ((c : Thread nD τ).loc main_arg13) := by back4
theorem W4_arg14 (c : Dev nD) : W4 m ρ c (Proc.devRef .tc main_arg14) = m ((c : Thread nD τ).loc main_arg14) := by back4

/-! ## Boundary 5: after the third stretch (region 2's entry) -/

theorem W5_v29 (c : Dev nD) : W5 m ρ c (Proc.devRef .tc main_v29) = (Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  host_step hostOps2
  exact W4_v29 m ρ c
theorem W5_v16 (c : Dev nD) : W5 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  host_step hostOps2
  exact W4_v16 m ρ c

set_option maxHeartbeats 1600000 in
/-- The third aggregation, of the second layer's result. -/
theorem W5_v39 (c : Dev nD) : W5 m ρ c (Proc.devRef .tc main_v39) = (Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps2 _ (Proc.devRef .tc main_v39) = _
  after_results
  simp only [W4_v29 m ρ c, W4_v1 m ρ c, W4_v3 m ρ c]
  try chain_rfl

theorem W5_arg11 (c : Dev nD) : W5 m ρ c (Proc.devRef .tc main_arg11) = m ((c : Thread nD τ).loc main_arg11) := by back5
theorem W5_arg13 (c : Dev nD) : W5 m ρ c (Proc.devRef .tc main_arg13) = m ((c : Thread nD τ).loc main_arg13) := by back5

/-- The bias row `main_v40` is argument 12 placed as a row. -/
theorem W5_v40 (c : Dev nD) : W5 m ρ c (Proc.devRef .tc main_v40) = (Cert.ReferenceIdeal.Read.val_main_v58 (F := Ideal) (m ((c : Thread nD τ).loc main_arg12))) := by
  show StableHlo.after hostOps2 _ (Proc.devRef .tc main_v40) = _
  after_results
  rw [W4_arg12 m ρ c]
  exact Cert.LibCastForms.row_cast_eq_bcast _ _ _

/-- The bias row `main_v41` is argument 14 placed as a row. -/
theorem W5_v41 (c : Dev nD) : W5 m ρ c (Proc.devRef .tc main_v41) = (Cert.ReferenceIdeal.Read.val_main_v63 (F := Ideal) (m ((c : Thread nD τ).loc main_arg14))) := by
  show StableHlo.after hostOps2 _ (Proc.devRef .tc main_v41) = _
  after_results
  rw [W4_arg14 m ρ c]
  exact Cert.LibCastForms.row_cast_eq_bcast _ _ _

/-! ## Boundary 6: after region 2 -/

/-- Region 2 leaves the third layer's result. -/
theorem W6_v42 (c : Dev nD) : W6 m ρ c (Proc.devRef .tc main_v42) = (Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W6_arr m ρ c 6).trans ((Layer2.final (V5 m ρ) c).trans ?_)
  show GinLayer.layer (W5 m ρ c (Proc.devRef .tc main_v29)) (W5 m ρ c (Proc.devRef .tc main_v39)) (W5 m ρ c (Proc.devRef .tc main_arg11))
    (W5 m ρ c (Proc.devRef .tc main_v40)) (W5 m ρ c (Proc.devRef .tc main_arg13)) (W5 m ρ c (Proc.devRef .tc main_v41)) = _
  rw [W5_v29 m ρ c, W5_v39 m ρ c, W5_arg11 m ρ c, W5_v40 m ρ c, W5_arg13 m ρ c, W5_v41 m ρ c]
  exact (Cert.ReferenceIdeal.Stages.stage3 _ _ _ _ _ _ _ _ _ _ _ _ _ _).symm

theorem W6_v16 (c : Dev nD) : W6 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (W6_of_ne m ρ c main_v16 (by decide)).trans (W5_v16 m ρ c)
/-- The second layer's result is an input of region 2: the region leaves it as it found it. -/
theorem W6_v29 (c : Dev nD) : W6 m ρ c (Proc.devRef .tc main_v29) = (Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  ((W6_arr m ρ c 0).trans (((dat2 (V5 m ρ) c).arrAt_in 0 rfl _).trans (A_eq2 (V5 m ρ) c 0))).trans (W5_v29 m ρ c)
theorem W6_arg15 (c : Dev nD) : W6 m ρ c (Proc.devRef .tc main_arg15) = m ((c : Thread nD τ).loc main_arg15) := by back6
theorem W6_arg16 (c : Dev nD) : W6 m ρ c (Proc.devRef .tc main_arg16) = m ((c : Thread nD τ).loc main_arg16) := by back6

/-! ## Boundary 7: after the fourth stretch (region 3's entry) -/

theorem W7_v16 (c : Dev nD) : W7 m ρ c (Proc.devRef .tc main_v16) = (Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  host_step hostOps3
  exact W6_v16 m ρ c
theorem W7_v29 (c : Dev nD) : W7 m ρ c (Proc.devRef .tc main_v29) = (Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  host_step hostOps3
  exact W6_v29 m ρ c
theorem W7_v42 (c : Dev nD) : W7 m ρ c (Proc.devRef .tc main_v42) = (Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  host_step hostOps3
  exact W6_v42 m ρ c
theorem W7_arg15 (c : Dev nD) : W7 m ρ c (Proc.devRef .tc main_arg15) = m ((c : Thread nD τ).loc main_arg15) := by back7

/-- The bias row `main_v43` is argument 16 placed as a row. -/
theorem W7_v43 (c : Dev nD) : W7 m ρ c (Proc.devRef .tc main_v43) = (Cert.ReferenceIdeal.Read.val_main_v69 (F := Ideal) (m ((c : Thread nD τ).loc main_arg16))) := by
  show StableHlo.after hostOps3 _ (Proc.devRef .tc main_v43) = _
  after_results
  rw [W6_arg16 m ρ c]
  exact Cert.LibCastForms.row_cast_eq_bcast _ _ _

/-! ## Boundary 8: after region 3 -/

/-- Region 3 leaves the projection of the three layers' results. -/
theorem W8_v44 (c : Dev nD) : W8 m ρ c (Proc.devRef .tc main_v44) = (Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  refine (W8_arr m ρ c 5).trans ((Jk.final (V7 m ρ) c).trans ?_)
  show JkLayer.proj (A := 50000) (C := 64) (B := 64) (N := 192) rfl (W7 m ρ c (Proc.devRef .tc main_v16)) (W7 m ρ c (Proc.devRef .tc main_v29))
    (W7 m ρ c (Proc.devRef .tc main_v42)) (W7 m ρ c (Proc.devRef .tc main_arg15)) (W7 m ρ c (Proc.devRef .tc main_v43)) = _
  rw [W7_v16 m ρ c, W7_v29 m ρ c, W7_v42 m ρ c, W7_arg15 m ρ c, W7_v43 m ρ c]
  exact (Cert.ReferenceIdeal.Stages.stageJk _ _ _ _ _ _ _ _ _ _ _ _ _ _ _ _).symm

theorem W8_arg2 (c : Dev nD) : W8 m ρ c (Proc.devRef .tc main_arg2) = m ((c : Thread nD τ).loc main_arg2) := by back8
theorem W8_arg17 (c : Dev nD) : W8 m ρ c (Proc.devRef .tc main_arg17) = m ((c : Thread nD τ).loc main_arg17) := by back8
theorem W8_arg18 (c : Dev nD) : W8 m ρ c (Proc.devRef .tc main_arg18) = m ((c : Thread nD τ).loc main_arg18) := by back8
theorem W8_arg19 (c : Dev nD) : W8 m ρ c (Proc.devRef .tc main_arg19) = m ((c : Thread nD τ).loc main_arg19) := by back8
theorem W8_arg20 (c : Dev nD) : W8 m ρ c (Proc.devRef .tc main_arg20) = m ((c : Thread nD τ).loc main_arg20) := by back8
theorem W8_arg21 (c : Dev nD) : W8 m ρ c (Proc.devRef .tc main_arg21) = m ((c : Thread nD τ).loc main_arg21) := by back8
theorem W8_arg22 (c : Dev nD) : W8 m ρ c (Proc.devRef .tc main_arg22) = m ((c : Thread nD τ).loc main_arg22) := by back8
theorem W8_arg23 (c : Dev nD) : W8 m ρ c (Proc.devRef .tc main_arg23) = m ((c : Thread nD τ).loc main_arg23) := by back8
theorem W8_arg24 (c : Dev nD) : W8 m ρ c (Proc.devRef .tc main_arg24) = m ((c : Thread nD τ).loc main_arg24) := by back8

/-! ## Boundary 9: after the last stretch (region 4's entry) -/

/-- The pooled features: the same scatter-sum as the reference's, of the projection, by the same graph indices. -/
theorem W9_v47 (c : Dev nD) : W9 m ρ c (Proc.devRef .tc main_v47) = (Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show StableHlo.after hostOps4 _ (Proc.devRef .tc main_v47) = _
  after_results
  rw [W8_arg2 m ρ c, W8_v44 m ρ c]
  rfl

theorem W9_arg17 (c : Dev nD) : W9 m ρ c (Proc.devRef .tc main_arg17) = m ((c : Thread nD τ).loc main_arg17) := by back9
theorem W9_arg23 (c : Dev nD) : W9 m ρ c (Proc.devRef .tc main_arg23) = m ((c : Thread nD τ).loc main_arg23) := by back9

/-- The bias row `main_v48` is argument 18 placed as a row. -/
theorem W9_v48 (c : Dev nD) : W9 m ρ c (Proc.devRef .tc main_v48) = (Cert.ReferenceIdeal.Read.val_main_v76 (F := Ideal) (m ((c : Thread nD τ).loc main_arg18))) := by
  show StableHlo.after hostOps4 _ (Proc.devRef .tc main_v48) = _
  after_results
  rw [W8_arg18 m ρ c]
  exact Cert.LibCastForms.row_cast_eq_bcast _ _ _

/-- The bias row `main_v49` is argument 19 placed as a row. -/
theorem W9_v49 (c : Dev nD) : W9 m ρ c (Proc.devRef .tc main_v49) = (Cert.ReferenceIdeal.Read.val_main_v88 (F := Ideal) (m ((c : Thread nD τ).loc main_arg19))) := by
  show StableHlo.after hostOps4 _ (Proc.devRef .tc main_v49) = _
  after_results
  rw [W8_arg19 m ρ c]
  exact Cert.LibCastForms.row_cast_eq_bcast _ _ _

/-- The bias row `main_v50` is argument 20 placed as a row. -/
theorem W9_v50 (c : Dev nD) : W9 m ρ c (Proc.devRef .tc main_v50) = (Cert.ReferenceIdeal.Read.val_main_v91 (F := Ideal) (m ((c : Thread nD τ).loc main_arg20))) := by
  show StableHlo.after hostOps4 _ (Proc.devRef .tc main_v50) = _
  after_results
  rw [W8_arg20 m ρ c]
  exact Cert.LibCastForms.row_cast_eq_bcast _ _ _

/-- The bias row `main_v51` is argument 21 placed as a row. -/
theorem W9_v51 (c : Dev nD) : W9 m ρ c (Proc.devRef .tc main_v51) = (Cert.ReferenceIdeal.Read.val_main_v79 (F := Ideal) (m ((c : Thread nD τ).loc main_arg21))) := by
  show StableHlo.after hostOps4 _ (Proc.devRef .tc main_v51) = _
  after_results
  rw [W8_arg21 m ρ c]
  exact Cert.LibCastForms.row_cast_eq_bcast _ _ _

/-- The bias row `main_v53` is argument 24 placed as a row. -/
theorem W9_v53 (c : Dev nD) : W9 m ρ c (Proc.devRef .tc main_v53) = (Cert.ReferenceIdeal.Read.val_main_v96 (F := Ideal) (m ((c : Thread nD τ).loc main_arg24))) := by
  show StableHlo.after hostOps4 _ (Proc.devRef .tc main_v53) = _
  after_results
  rw [W8_arg24 m ρ c]
  exact Cert.LibCastForms.row_cast_eq_bcast _ _ _

/-- The reciprocal standard deviation row the body computes from the variance row is the reference's: the reciprocal
    square root of the variance argument plus the constant, placed as a row. -/
theorem W9_rs (c : Dev nD) :
    rsqrt (addf (W9 m ρ c (Proc.devRef .tc main_v52) : FVec Ideal S1x64 .f32) (broadcast S1x64 (Scalar.ofBits (F := Ideal) .f32 0x3727C5AC#32)))
      = (Cert.ReferenceIdeal.Read.val_main_v85 (F := Ideal) (m ((c : Thread nD τ).loc main_arg22))) := by
  have e : W9 m ρ c (Proc.devRef .tc main_v52)
      = broadcastInDim Cert.ReferenceIdeal.S1x64 ![1] Cert.ReferenceIdeal.Facts₀.bcast_S64_S1x64_1 (m ((c : Thread nD τ).loc main_arg22)) := by
    show StableHlo.after hostOps4 _ (Proc.devRef .tc main_v52) = _
    after_results
    rw [W8_arg22 m ρ c]
    exact Cert.LibCastForms.row_cast_eq_bcast _ _ _
  rw [e]
  exact Cert.Classifier.rsRow_eq _ _ _ Cert.ReferenceIdeal.Facts₀.bcast_S_S64

/-! ## Boundary 10: after region 4 — the result -/

/-- Region 4 leaves the classifier's head of the pooled features: the reference's result of the same arguments. -/
theorem W10_result (c : Dev nD) : W10 m ρ c (Proc.devRef .tc main_v54) = (Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  refine (W10_arr m ρ c 9).trans ((Head.final (V9 m ρ) c).trans ?_)
  show Classifier.head (A := 256) (H := 64) (B := 10) (W9 m ρ c (Proc.devRef .tc main_v47)) (W9 m ρ c (Proc.devRef .tc main_arg17)) (W9 m ρ c (Proc.devRef .tc main_v48))
    (W9 m ρ c (Proc.devRef .tc main_v51))
    (rsqrt (addf (W9 m ρ c (Proc.devRef .tc main_v52) : FVec Ideal S1x64 .f32) (broadcast S1x64 (Scalar.ofBits (F := Ideal) .f32 0x3727C5AC#32))))
    (W9 m ρ c (Proc.devRef .tc main_v49)) (W9 m ρ c (Proc.devRef .tc main_v50)) (W9 m ρ c (Proc.devRef .tc main_arg23)) (W9 m ρ c (Proc.devRef .tc main_v53)) = _
  rw [W9_rs m ρ c, W9_v47 m ρ c, W9_arg17 m ρ c, W9_v48 m ρ c, W9_v51 m ρ c, W9_v49 m ρ c, W9_v50 m ρ c, W9_arg23 m ρ c,
    W9_v53 m ρ c]
  exact (Cert.ReferenceIdeal.Stages.stageHead _ _ _ _ _ _ _ _ _ _ _ _ _ _ _ _ _ _ _ _ _ _ _ _ _).symm

end Cert.KernelIdeal.Fold

end
-- ==== Proof.lean ====
/-
  The certificate of the graph-isomorphism network kernel against its reference.

  Both programs compute, from node features `x`, an edge list and a graph assignment: three layers
  `h ↦ max (max ((h + agg h) · w1 + b1) 0 · w2 + b2) 0` (with `agg h` the sum of `h` over incoming edges), the projection of the
  three results joined along the feature axis, the sum over the nodes of each graph, and a classifier's head (dense layer,
  batch normalisation in inference mode, maximum with zero, dense layer).  The kernel runs the five dense pieces as
  pipelined regions over blocks of 5000 rows, with bf16 operands (a change of format is the identity on extended reals),
  and leaves the gather and the scatter-sums to the same host operations the reference uses.

  Frames: the two kernels' by the generated frame certificates, the reference's by its generated run.  `preserves`: the ideal pass rewrote nothing.  `algebraic`: the kernel's run ends with its result buffer at
  the last boundary's contents (`RunValue.run_result`), those contents are the reference's own stages applied to the same
  arguments (`Fold.W10_result`: region by region the kernel's array is the layer / projection / head of its entry arrays,
  and the reference's stage is the same function, `Stages`), and the reference's run ends at those stages of ITS arguments,
  which agree with the kernel's.  The only regrouping of sums is the split of the projection's sum over 192 joined columns
  into three bands of 64, by associativity: no finiteness of the inputs is used.
-/
import proofs.«134794_j18726057411221_1_alg».proof.Defs
import proofs.«134794_j18726057411221_1_alg».proof.Proof.Gen.Kernel
import proofs.«134794_j18726057411221_1_alg».proof.Proof.Gen.Kernel.Skeleton
import proofs.«134794_j18726057411221_1_alg».proof.Proof.KernelLaunchP
import proofs.«134794_j18726057411221_1_alg».proof.Proof.Gen.Kernel.Points
import proofs.«134794_j18726057411221_1_alg».proof.Proof.KernelFrameP
import proofs.«134794_j18726057411221_1_alg».proof.Proof.Gen.KernelIdeal
import proofs.«134794_j18726057411221_1_alg».proof.Proof.Gen.KernelIdeal.Skeleton
import proofs.«134794_j18726057411221_1_alg».proof.Proof.KernelIdealLaunchP
import proofs.«134794_j18726057411221_1_alg».proof.Proof.Gen.KernelIdeal.Points
import proofs.«134794_j18726057411221_1_alg».proof.Proof.KernelIdealFrameP
import proofs.«134794_j18726057411221_1_alg».proof.Proof.Gen.ReferenceIdeal
import proofs.«134794_j18726057411221_1_alg».proof.Proof.Gen.ReferenceIdeal.Run
import proofs.«134794_j18726057411221_1_alg».proof.Proof.Gen.ReferenceIdeal.Read
import proofs.«134794_j18726057411221_1_alg».proof.Proof.Gen.Pre_finite_inputs
import proofs.«134794_j18726057411221_1_alg».proof.Proof.LibRunBoth
import proofs.«134794_j18726057411221_1_alg».proof.Proof.KernelRun
import proofs.«134794_j18726057411221_1_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel's frame: the generated frame certificate. -/
theorem frame_kernel : Cert.frame_Kernel := fun m ρ _ => Cert.Kernel.GenP.frame m ρ

/-- The idealized kernel's frame: the generated frame certificate at the ideal instance. -/
theorem frame_kernelIdeal : Cert.frame_KernelIdeal := fun m ρ _ => Cert.KernelIdeal.GenP.frame m ρ

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's last boundary holds, in the result buffer, the reference's stages of ANY argument values equal to the
    kernel's launch memory (the form in which the reference's own arguments enter). -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S50000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal))
    (x9 : (⟨Cert.ReferenceIdeal.S64x64, .f32⟩ : BufTy).Contents (Elt Ideal))
    (x10 : (⟨Cert.ReferenceIdeal.S64, .f32⟩ : BufTy).Contents (Elt Ideal))
    (x11 : (⟨Cert.ReferenceIdeal.S64x64, .f32⟩ : BufTy).Contents (Elt Ideal))
    (x12 : (⟨Cert.ReferenceIdeal.S64, .f32⟩ : BufTy).Contents (Elt Ideal))
    (x13 : (⟨Cert.ReferenceIdeal.S64x64, .f32⟩ : BufTy).Contents (Elt Ideal))
    (x14 : (⟨Cert.ReferenceIdeal.S64, .f32⟩ : BufTy).Contents (Elt Ideal))
    (x15 : (⟨Cert.ReferenceIdeal.S192x64, .f32⟩ : BufTy).Contents (Elt Ideal))
    (x16 : (⟨Cert.ReferenceIdeal.S64, .f32⟩ : BufTy).Contents (Elt Ideal))
    (x17 : (⟨Cert.ReferenceIdeal.S64x64, .f32⟩ : BufTy).Contents (Elt Ideal))
    (x18 : (⟨Cert.ReferenceIdeal.S64, .f32⟩ : BufTy).Contents (Elt Ideal))
    (x19 : (⟨Cert.ReferenceIdeal.S64, .f32⟩ : BufTy).Contents (Elt Ideal))
    (x20 : (⟨Cert.ReferenceIdeal.S64, .f32⟩ : BufTy).Contents (Elt Ideal))
    (x21 : (⟨Cert.ReferenceIdeal.S64, .f32⟩ : BufTy).Contents (Elt Ideal))
    (x22 : (⟨Cert.ReferenceIdeal.S64, .f32⟩ : BufTy).Contents (Elt Ideal))
    (x23 : (⟨Cert.ReferenceIdeal.S64x10, .f32⟩ : BufTy).Contents (Elt Ideal))
    (x24 : (⟨Cert.ReferenceIdeal.S10, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12))
    (h13 : x13 = m ((c.tc : Thread Cert.KernelIdeal.nD Cert.KernelIdeal.τ).loc Cert.KernelIdeal.main_arg13))
    (h14 : x14 = m ((c.tc : Thread Cert.KernelIdeal.nD Cert.KernelIdeal.τ).loc Cert.KernelIdeal.main_arg14))
    (h15 : x15 = m ((c.tc : Thread Cert.KernelIdeal.nD Cert.KernelIdeal.τ).loc Cert.KernelIdeal.main_arg15))
    (h16 : x16 = m ((c.tc : Thread Cert.KernelIdeal.nD Cert.KernelIdeal.τ).loc Cert.KernelIdeal.main_arg16))
    (h17 : x17 = m ((c.tc : Thread Cert.KernelIdeal.nD Cert.KernelIdeal.τ).loc Cert.KernelIdeal.main_arg17))
    (h18 : x18 = m ((c.tc : Thread Cert.KernelIdeal.nD Cert.KernelIdeal.τ).loc Cert.KernelIdeal.main_arg18))
    (h19 : x19 = m ((c.tc : Thread Cert.KernelIdeal.nD Cert.KernelIdeal.τ).loc Cert.KernelIdeal.main_arg19))
    (h20 : x20 = m ((c.tc : Thread Cert.KernelIdeal.nD Cert.KernelIdeal.τ).loc Cert.KernelIdeal.main_arg20))
    (h21 : x21 = m ((c.tc : Thread Cert.KernelIdeal.nD Cert.KernelIdeal.τ).loc Cert.KernelIdeal.main_arg21))
    (h22 : x22 = m ((c.tc : Thread Cert.KernelIdeal.nD Cert.KernelIdeal.τ).loc Cert.KernelIdeal.main_arg22))
    (h23 : x23 = m ((c.tc : Thread Cert.KernelIdeal.nD Cert.KernelIdeal.τ).loc Cert.KernelIdeal.main_arg23))
    (h24 : x24 = m ((c.tc : Thread Cert.KernelIdeal.nD Cert.KernelIdeal.τ).loc Cert.KernelIdeal.main_arg24)) :
    Cert.KernelIdeal.GenP.W10 m ρ c (Proc.devRef .tc Cert.KernelIdeal.main_v54)
      = Cert.ReferenceIdeal.Read.val_main_v98 (F := Ideal) x0 x1 x2 x3 x4 x5 x6 x7 x8 x9 x10 x11 x12 x13 x14 x15 x16 x17 x18 x19 x20 x21 x22 x23 x24 := by
  subst h0 h1 h2 h3 h4 h5 h6 h7 h8 h9 h10 h11 h12 h13 h14 h15 h16 h17 h18 h19 h20 h21 h22 h23 h24
  exact Cert.KernelIdeal.Fold.W10_result m ρ c

/-- Both idealized programs end with the reference's stages of the reference's arguments in their result buffers: the
    reference by its generated run, the kernel because its arguments are the same arrays. -/
theorem algebraic : Cert.algebraic_KernelIdeal_ReferenceIdeal := by
  intro m ρ m' ρ' _ hagree
  refine ⟨fun c => Cert.ReferenceIdeal.Read.val_main_v98 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)), ?_, ?_⟩
  · refine (θ_run Cert.KernelIdeal.defs _ _).mono (fun r h c => ?_)
      (θ_run_both _ _ _ _ _ (Cert.KernelIdeal.RunValue.run_result m ρ) (Cert.KernelIdeal.GenP.frame m ρ))
    obtain ⟨e0, e1, e2, e3, e4, e5, e6, e7, e8, e9, e10, e11, e12, e13, e14, e15, e16, e17, e18, e19, e20, e21, e22, e23, e24⟩ := hagree c
    exact ⟨(h.1 c).trans (kernel_result m ρ c _ _ _ _ _ _ _ _ _ _ _ _ _ _ _ _ _ _ _ _ _ _ _ _ _ e0 e1 e2 e3 e4 e5 e6 e7 e8 e9 e10 e11 e12 e13 e14 e15 e16 e17 e18 e19 e20 e21 e22 e23 e24), h.2 c⟩
  · exact (θ_run Cert.ReferenceIdeal.defs _ _).mono
      (fun _ h c => ⟨(h c).1.trans (Cert.ReferenceIdeal.Read.val_main_v98_eq m' c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
